-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096x4096 32) (main_v13 : IVec S_ 1) (main_v15 : IVec S4096x4096 1) (main_c_5 : IVec S_ 32) : IVec S_ 1 :=
  let main_v16 : IVec S4096x4096 32 := broadcastInDim S4096x4096 ![] bcast_S_S4096x4096 main_c_5
  let main_v17 : IVec S4096x4096 1 := cmpi .eq main_arg2 main_v16
  let main_v18 : IVec S4096x4096 1 := ori main_v15 main_v17
  let main_c_6 : IVec S_ 1 := constantI S_ 1 1#1
  let main_v19 : IVec S_ 1 := (fun x v => Host.reduce IntOp.andi x v reducesTo_S4096x4096_S_d0_1 h_S_) main_v18 main_c_6
  let main_v20 : IVec S_ 1 := andi main_v13 main_v19
  main_v20

def fn {F : FTy → Type} [FloatOps F] (main_arg0 : FVec F S8x2048x4096 .f32) (main_arg1 : FVec F S4096x4096 .f32) (main_arg2 : IVec S4096x4096 32) (main_arg3 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x4096 32 := broadcastInDim S4096x4096 ![] bcast_S_S4096x4096 main_c_4
  let main_v15 : IVec S4096x4096 1 := cmpi .eq main_arg2 main_v14
  let main_c_5 : IVec S_ 32 := constantI S_ 32 1#32
  fn_part1 (F := F) main_arg2 main_v13 main_v15 main_c_5
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x1 : Shape := ⟨2, ![4096, 1]⟩
abbrev S256x4096 : Shape := ⟨2, ![256, 4096]⟩
abbrev S256x1 : Shape := ⟨2, ![256, 1]⟩
abbrev S16384x4096 : Shape := ⟨2, ![16384, 4096]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 10
  | .vmem => 15
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .i32⟩
  | .hbm, ⟨3, _⟩ => ⟨S4096, .f32⟩
  | .hbm, ⟨4, _⟩ => ⟨S4096x1, .f32⟩
  | .hbm, ⟨5, _⟩ => ⟨S4096x4096, .bf16⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S256x4096, .bf16⟩
  | .local _ .vmem, ⟨7, _⟩ => ⟨S256x4096, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S4096_S4096x1_0 : S4096.BroadcastsInDim S4096x1 (![0] : Fin 1 → Fin S4096x1.rank)
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S8x2048x4096_S16384x4096 : S8x2048x4096.ShapeCasts S16384x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S16384x4096_S8x2048x4096 : S16384x4096.ShapeCasts S8x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .bf16 = 32 ∨ (Rect.block (s := S16384x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S16384x4096.size a
  hwx1_2 : ∀ i : grid1.Coords, EltTy.bits .f32 = 32 ∨ (Rect.block (s := S16384x4096) S1024x2048.size (cc1_transform_2 i) (hinb1_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .f32⟩
  | .hbm, ⟨11, _⟩ => ⟨S4096x1, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.K.Region0.lean ====
import proofs.«176794_j40896678593009_2_alg».proof.Proof.Gen.Kernel.Launch
import proofs.«176794_j40896678593009_2_alg».proof.Proof.Gen.Kernel.Skeleton
import proofs.«176794_j40896678593009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Quantize
/- The contents of the core's buffers when the first grid is entered. -/
variable (V : (c : Dev nD) → (b : Ref sig .tc) → Buf (Elt F) ((c : Thread nD τ).loc b))

/-! ## The tiles a grid point works on -/

/-- The block of window `w` that grid point `t` works on, cut from the window's array at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging tile holds the window's block at every grid point, whether or not the block was
    moved in at that point: an unmoved block means the block index did not change. Stated for any proof data
    whose array is the entry contents and whose step leaves the input tile alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What one grid step reads and writes -/

/-- The whole 256x4096 tile, and the whole 256x1 column of row scales. -/
abbrev rTile : Rect S256x4096 := Rect.unit (s := S256x4096) ![0, 0] S256x4096.size inb_S256x4096_S256x4096_0_0
abbrev rCol : Rect S256x1 := Rect.unit (s := S256x1) ![0, 0] S256x1.size inb_S256x1_S256x1_0_0

/-- What one grid step leaves in the output tile, from the base tile `x0`, the sign tile `x1` and the column of
    row scales `x2`: the rounding to bf16 of base + (2·sign − 1)·scale, written as a single piece over the whole tile. -/
def out0_3 (x0 : Vec F S256x4096 .f32) (x1 : Vec F S256x4096 .i32) (x2 : Vec F S256x1 .f32) : Vec F S256x4096 .bf16 :=
  View.canon [⟨rTile, k0_pay1 (View.ld x1 rTile) (View.ld x0 rTile) (View.ld x2 rCol)⟩]

/-- The single write covers every index of the tile. -/
theorem cover0_3 (p0 : Vec F S256x4096 .bf16) (y : S256x4096.Idx) :
    ∃ pc ∈ ([⟨rTile, p0⟩] : List (View.Piece (Elt F) S256x4096 .bf16)), y ∈ pc.1.set :=
  View.cover_of_tiled [⟨rTile, p0⟩] S256x4096.size (by rfl) y

/-! ## The step's triple -/

set_option maxHeartbeats 1000000 in
/-- One grid step on whole tiles: the three inputs, held at contents `x0`, `x1`, `x2`, are read and left as they
    were; the output tile, held at anything, ends at `out0_3 x0 x1 x2`. -/
theorem sound_kernel0 (c : Dev nD) (E : Set ℕ) (i : grid0.Coords)
    (arg1 : Memref sig .tc .vmem S256x4096 .f32) (harg1 : arg1.IsWhole)
    (arg2 : Memref sig .tc .vmem S256x4096 .i32) (harg2 : arg2.IsWhole)
    (arg3 : Memref sig .tc .vmem S256x1 .f32) (harg3 : arg3.IsWhole)
    (arg4 : Memref sig .tc .vmem S256x4096 .bf16) (harg4 : arg4.IsWhole)
    (x0 : Vec F S256x4096 .f32) (x1 : Vec F S256x4096 .i32) (x2 : Vec F S256x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__quantize_kernel i arg1 harg1 arg2 harg2 arg3 harg3 arg4 harg4) K := by
  simp only [cc0__quantize_kernel_eq_skeleton]; unfold cc0__quantize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the first grid -/

/-- On core `c`: the arrays as found at entry; after the step at point `t` each input tile still holds its block
    and the output tile holds `out0_3` of the three input blocks; the invariant is the scoped rest and the
    generator register, untouched; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation of the step, at any grid point -/

/-- What the step is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The step at any point: the input tiles hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the step, at every point. -/
theorem body_obligation0 (c : Dev nD) : BodyObligation (dat0 (F := F) V c) (defs₀ (F := F)) Variants.none () Set.univ := fun t => by
  rw [bigSep_W0, bigSep_W0]
  exact sound_body0 V c t

end Quantize

end Cert.Kernel.Hand

end
-- ==== Proof.K.R1Base.lean ====
/-
  The matrix-product region (the second kernel launch), first part: what every case of its body shares.

  The grid is (16, 2, 8): point t has coordinates (i, j, k) with k = t mod 8 the contraction block. The body
  zeroes its accumulator when k = 0, adds the product of the point's [1024,512] and [2048,512] blocks (contracting
  their second axes) to it at every point, and copies the accumulator into the output block when k = 7. So there
  are three control cases — k = 0, 0 < k < 7, k = 7 — and the output window is idle (neither stored nor written
  back) unless k = 7. Here: the blocks of the two input windows as the region finds them, the two branch
  conditions in closed form, where the output window is idle, and the names of the staging and scratch memrefs.
-/
import proofs.«176794_j40896678593009_2_alg».proof.Proof.Gen.Kernel.Launch
import proofs.«176794_j40896678593009_2_alg».proof.Proof.Gen.Kernel.Skeleton
import proofs.«176794_j40896678593009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the contents of the TensorCore's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block (rows of block i, columns of block k) at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block (rows of block j, columns of block k) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "k = 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the accumulator is copied to the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Unless k = 7 the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x2048 .f32 := (Memref.whole cc1_stg2_0 : Memref sig .tc .vmem S1024x2048 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x2048 .f32 := Memref.whole cc1_scratch0
abbrev VS1_0 : View sig .tc .vmem S1024x2048 .f32 := scM1_0.view

end Cert.Kernel.Hand

end
-- ==== Proof.K.R1RunA.lean ====
/-
  The matrix-product region's body in the case k = 0 (the accumulator zeroed, then the first product added; the output window idle): on whole staging memrefs holding the point's two input blocks
  the body runs to its end, leaves the inputs as they were, and leaves in the accumulator (and in the output
  buffer, when the case stores it) the listed pieces — found by running the body symbolically, each branch decided
  by the case's hypotheses.
-/
import proofs.«176794_j40896678593009_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in case A, with the body's triple. -/
noncomputable def kernelRun1_A (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunB.lean ====
/-
  The matrix-product region's body in the case 0 < k < 7 (one more product added to the accumulator; the output window idle): on whole staging memrefs holding the point's two input blocks
  the body runs to its end, leaves the inputs as they were, and leaves in the accumulator (and in the output
  buffer, when the case stores it) the listed pieces — found by running the body symbolically, each branch decided
  by the case's hypotheses.
-/
import proofs.«176794_j40896678593009_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in case B, with the body's triple. -/
noncomputable def kernelRun1_B (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunC.lean ====
/-
  The matrix-product region's body in the case k = 7 (the last product added, the accumulator copied to the output block): on whole staging memrefs holding the point's two input blocks
  the body runs to its end, leaves the inputs as they were, and leaves in the accumulator (and in the output
  buffer, when the case stores it) the listed pieces — found by running the body symbolically, each branch decided
  by the case's hypotheses.
-/
import proofs.«176794_j40896678593009_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in case C, with the body's triple. -/
noncomputable def kernelRun1_C (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.Region1.lean ====
/-
  The matrix-product region, last part. What the accumulator (and, when k = 7, the output block) holds after each
  grid point, as a recursion over the points: at k = 0 the body's pieces over anything, otherwise the body's pieces
  over what the point before left in the accumulator. The region's invariant before point n is the kernel's other
  scoped buffers at anything, the generator register at some state, and — from the second point on — the
  accumulator at exactly what point n - 1 left. With it: the proof data of the pipeline, the body's obligation at
  every point, and the invariant's two ends.
-/
import proofs.«176794_j40896678593009_2_alg».proof.Proof.K.R1RunA
import proofs.«176794_j40896678593009_2_alg».proof.Proof.K.R1RunB
import proofs.«176794_j40896678593009_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The scoped buffers beside the accumulator -/

/-- The first kernel launch's eight staging buffers, each whole at some contents: what the matrix-product body never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant, with the accumulator split off the other scoped buffers. -/
theorem PhiA1_split (c : Dev nD) :
    (Pipeline.ΦA spec1 c : sProp 𝕄) ⊢ iprop(others1 c ∗ (∃ d, owns (c : Thread nD τ) scM1_0 fullShare d) ∗ (∃ r, prngReg c r)) := by
  unfold Pipeline.ΦA others1; rw [scopedRest1_eq]; simp only [scM1_0, owns_whole]
  iintro ⟨⟨H0, H1, H2, H3, H4, H5, H6, H7, HS⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]; · iexact HS
  iexact Hg

/-- And put back. -/
theorem PhiA1_join (c : Dev nD) :
    iprop(others1 c ∗ (∃ d, owns (c : Thread nD τ) scM1_0 fullShare d) ∗ (∃ r, prngReg c r)) ⊢ (Pipeline.ΦA spec1 c : sProp 𝕄) := by
  unfold Pipeline.ΦA others1; rw [scopedRest1_eq]; simp only [scM1_0, owns_whole]
  iintro ⟨⟨H0, H1, H2, H3, H4, H5, H6, H7⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## What each case leaves -/

/-- What an idle point "leaves" in the output buffer: a placeholder nothing consults. -/
def idleOut1 : Vec F S1024x2048 .f32 := VO1_2.read (Elt F) (VO1_2.writes (Elt F) VO1_2.junk [])

theorem scover1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) (y : S1024x2048.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x2048.size (by sl_kernel_rfl) y

/-- The accumulator after a point with k = 0. -/
def sout1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) : Vec F S1024x2048 .f32 :=
  VS1_0.read (Elt F) (VS1_0.writes (Elt F) VS1_0.junk (kernelRun1_A c i arg3 harg3 arg4 harg4 arg5 harg5 arg6 harg6 hc0 hc1 x0 x1).2.1)

theorem scover1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) (y : S1024x2048.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x2048.size (by sl_kernel_rfl) y

/-- The accumulator after a point with 0 < k < 7, over what the point before left. -/
def sout1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_B c i arg3 harg3 arg4 harg4 arg5 harg5 arg6 harg6 hc0 hc1 x0 x1 xs0).2.1)

theorem cover1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x2048.size (by sl_kernel_rfl) y

/-- The output block after a point with k = 7. -/
def out1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VO1_2.read (Elt F) (VO1_2.writes (Elt F) VO1_2.junk (kernelRun1_C c i arg3 harg3 arg4 harg4 arg5 harg5 arg6 harg6 hc0 hc1 x0 x1 xs0).1)

theorem scover1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x2048.size (by sl_kernel_rfl) y

/-- The accumulator after a point with k = 7. -/
def sout1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_C c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the output's staging buffer and the accumulator hold after the body at position `n` (a pair: output, accumulator). -/
def outsAt1 (c : Dev nD) : (n : ℕ) → n < cfg1.N → Vec F S1024x2048 .f32 × Vec F S1024x2048 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the class invariant (every scoped buffer at anything); afterwards the other
    scoped buffers at anything, the accumulator at what position `n - 1` left, the generator register at some state. -/
def PhiS1 (c : Dev nD) : (n : ℕ) → n ≤ cfg1.N → sProp 𝕄
  | 0, _ => Pipeline.ΦA spec1 c
  | n + 1, hn => iprop(others1 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The arrays as the region finds them; after the body at point `t` each input's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The accumulator handed back at its pieces read back: the pieces cover it. -/
theorem scratch_back (c : Dev nD) (L : List (View.Piece (Elt F) S1024x2048 .f32))
    (hcov : ∀ y : S1024x2048.Idx, ∃ pc ∈ L, y ∈ pc.1.set) :
    (iprop(∃ f, scM1_0.view.loc (c : Thread nD τ) ↦[scM1_0.view.set]{fullShare} scM1_0.view.writes (Elt F) f L) : sProp 𝕄)
      ⊢ owns (c : Thread nD τ) scM1_0 fullShare (VS1_0.read (Elt F) (VS1_0.writes (Elt F) VS1_0.junk L)) := by
  iintro ⟨%es0, HS0⟩
  unfold owns; iexists _; isplitr
  swap; · iexact HS0
  ipureintro; exact View.read_writes_of_cover _ _ _ _ _ hcov

set_option maxHeartbeats 4800000 in
/-- The body at any point: the inputs' memrefs hold their blocks; the closed forms say which case the point is in; the
    invariant hands the body the accumulator at what the point before left (at anything when k = 0, where the body
    overwrites it first) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 8 = 7
  · -- k = 7
    have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_2 sout1_C_0; (try dsimp only)
    rw [PhiS1_castSucc V c t, PhiS1_pos V c _ _ hz]
    iintro ⟨⟨HR, HS0, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HR HS0 Hg]
    · isplitl [HR]; · iexact HR
      isplitl [HS0]
      · iapply (scratch_back c _ (scover1_C_0 c _ _ _ _ _ _ _ _ _ _ _ _ _ _))
        iexact HS0
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · -- the output window idle
    rw [Dat.leavesExact_idle (dat1 V c) 2 t (idleAt1_2 t (fun h => h1 ((hcond1_1 t).mp h))) (noFlush1_2 t (fun h => h1 ((hcond1_1 t).mp h)))]
    by_cases h0 : t.val % 8 = 0
    · -- k = 0
      rw [outsAt1_A V c t h0 h1]
      unfold sout1_A_0; (try dsimp only)
      rw [PhiS1_castSucc V c t]
      have hΦ : PhiS1 V c t.val (Nat.le_of_lt t.isLt) ⊢ (iprop(others1 c ∗ (∃ d, owns (c : Thread nD τ) scM1_0 fullShare d) ∗ (∃ r, prngReg c r)) : sProp 𝕄) := by
        by_cases hz : t.val = 0
        · rw [PhiS1_zero V c _ _ hz]; exact PhiA1_split c
        · rw [PhiS1_pos V c _ _ hz]
          iintro ⟨HR, HS0, Hg⟩
          isplitl [HR]; · iexact HR
          isplitl [HS0]; · iexists _; iexact HS0
          iexact Hg
      iintro ⟨HΦ, Ho, ⟨%d0, H0⟩, ⟨%d1, H1⟩, ⟨%d2, H2⟩⟩
      ihave HΦ' := hΦ $$ HΦ
      icases HΦ' with ⟨HR, HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, HS0⟩
      isplitl [HR HS0 Hg]
      · isplitl [HR]; · iexact HR
        isplitl [HS0]
        · iapply (scratch_back c _ (scover1_A_0 c _ _ _ _ _ _ _ _ _ _ _ _ _))
          iexact HS0
        iexact Hg
      isplitl [Ho]; · iexact Ho
      isplitl [H0]; · iexact H0
      isplitl [H1]; · iexact H1
      iexists _; iexact H2
    · -- 0 < k < 7
      have hz : t.val ≠ 0 := by omega
      rw [outsAt1_B V c t h0 h1]
      unfold sout1_B_0; (try dsimp only)
      rw [PhiS1_castSucc V c t, PhiS1_pos V c _ _ hz]
      iintro ⟨⟨HR, HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, HS0⟩
      isplitl [HR HS0 Hg]
      · isplitl [HR]; · iexact HR
        isplitl [HS0]
        · iapply (scratch_back c _ (scover1_B_0 c _ _ _ _ _ _ _ _ _ _ _ _ _ _))
          iexact HS0
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  iintro ⟨HR, HS0, Hg⟩
  iapply (PhiA1_join c)
  isplitl [HR]; · iexact HR
  isplitl [HS0]; · iexists _; iexact HS0
  iexact Hg

end

end Cert.Kernel.Hand

end
-- ==== Proof.K.Run.lean ====
import proofs.«176794_j40896678593009_2_alg».proof.Proof.K.Region0
import proofs.«176794_j40896678593009_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: host line, first grid, host line, second grid, host line

## The buffer contents at each boundary, folded from the launch memory -/

/-- Core `c`'s buffers at launch. -/
abbrev W0 : Dev nD → Valuation τ sig (Elt F) := fun c b => (s₀ m ρ).mem ((c : Dev nD), b)
/-- After the first host line (the row scales laid out as a column): what the first grid is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When the first grid is left: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host line (the activations flattened to rows and rounded): what the second grid is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the second grid is left. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host line (the product reshaped to the result's shape): the contents at the return. -/
abbrev W5 : Dev nD → Valuation τ sig (Elt F) := fun c => StableHlo.after hostOps2 (W4 m ρ c)

/-! ### The four arguments end as launched: no host line writes one, and a grid either reads it through an
    input window or never touches it -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data of both grids and the state that rides along -/

/-- Neither grid has a prefetched table. -/
abbrev adm : (p : Fin 2) → (pcfgs (F := F) p).Adm := fun p => (cfgs p).toPCfg_adm
/-- Each grid's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host line as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the contents at the return, the generator
    register at some state. -/
abbrev Tₙ (c : Dev nD) : sProp 𝕄 := iprop(StableHlo.held (c : Thread nD τ) (Pipeline.ucRefs τ sig) (W5 m ρ c) ∗ ∃ r, prngReg c r)

/-- The generator register, anything, and the scoped rest make the plain invariant of the second grid; -/
theorem intoΦA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and that invariant gives them back. -/
theorem outofΦA1 (c : Dev nD) :
    (Pipeline.ΦA spec1 c : sProp 𝕄)
      ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr
/-- The state the last host line leaves is the last thread state beside nothing owed. -/
theorem last_state (c : Dev nD) :
    iprop(StableHlo.held (c : Thread nD τ) (Pipeline.ucRefs τ sig) (W5 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two grids as segments -/

set_option backward.isDefEq.respectTransparency.types false in
/-- The first grid: entered from every unscoped buffer at `W1`, left at `W2`. Its arrays are split out of the
    unscoped buffers and put back at their exit contents; the generator register goes into the invariant and
    comes back; nothing is owed; the step has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second grid: entered from every unscoped buffer at `W3`, left at `W4`. Its invariant follows the
    accumulator it keeps between grid points; it starts from, and ends at, the scoped rest and the generator
    register (`hin1`, `hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA1 c _).trans (hin1 (V3 m ρ) c)
  hout c := by
    rw [Pipeline.ownSems0_none]
    exact (hout1 (V3 m ρ) c).trans (outofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution on the cores terminates without fault, and
    at the end every unscoped buffer of every core holds the folded contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.KI.Region0.lean ====
import proofs.«176794_j40896678593009_2_alg».proof.Proof.Gen.KernelIdeal.Launch
import proofs.«176794_j40896678593009_2_alg».proof.Proof.Gen.KernelIdeal.Skeleton
import proofs.«176794_j40896678593009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Quantize
/- The contents of the core's buffers when the first grid is entered. -/
variable (V : (c : Dev nD) → (b : Ref sig .tc) → Buf (Elt F) ((c : Thread nD τ).loc b))

/-! ## The tiles a grid point works on -/

/-- The block of window `w` that grid point `t` works on, cut from the window's array at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging tile holds the window's block at every grid point, whether or not the block was
    moved in at that point: an unmoved block means the block index did not change. Stated for any proof data
    whose array is the entry contents and whose step leaves the input tile alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What one grid step reads and writes -/

/-- The whole 256x4096 tile, and the whole 256x1 column of row scales. -/
abbrev rTile : Rect S256x4096 := Rect.unit (s := S256x4096) ![0, 0] S256x4096.size inb_S256x4096_S256x4096_0_0
abbrev rCol : Rect S256x1 := Rect.unit (s := S256x1) ![0, 0] S256x1.size inb_S256x1_S256x1_0_0

/-- What one grid step leaves in the output tile, from the base tile `x0`, the sign tile `x1` and the column of
    row scales `x2`: the rounding to bf16 of base + (2·sign − 1)·scale, written as a single piece over the whole tile. -/
def out0_3 (x0 : Vec F S256x4096 .f32) (x1 : Vec F S256x4096 .i32) (x2 : Vec F S256x1 .f32) : Vec F S256x4096 .bf16 :=
  View.canon [⟨rTile, k0_pay1 (View.ld x1 rTile) (View.ld x0 rTile) (View.ld x2 rCol)⟩]

/-- The single write covers every index of the tile. -/
theorem cover0_3 (p0 : Vec F S256x4096 .bf16) (y : S256x4096.Idx) :
    ∃ pc ∈ ([⟨rTile, p0⟩] : List (View.Piece (Elt F) S256x4096 .bf16)), y ∈ pc.1.set :=
  View.cover_of_tiled [⟨rTile, p0⟩] S256x4096.size (by rfl) y

/-! ## The step's triple -/

set_option maxHeartbeats 1000000 in
/-- One grid step on whole tiles: the three inputs, held at contents `x0`, `x1`, `x2`, are read and left as they
    were; the output tile, held at anything, ends at `out0_3 x0 x1 x2`. -/
theorem sound_kernel0 (c : Dev nD) (E : Set ℕ) (i : grid0.Coords)
    (arg1 : Memref sig .tc .vmem S256x4096 .f32) (harg1 : arg1.IsWhole)
    (arg2 : Memref sig .tc .vmem S256x4096 .i32) (harg2 : arg2.IsWhole)
    (arg3 : Memref sig .tc .vmem S256x1 .f32) (harg3 : arg3.IsWhole)
    (arg4 : Memref sig .tc .vmem S256x4096 .bf16) (harg4 : arg4.IsWhole)
    (x0 : Vec F S256x4096 .f32) (x1 : Vec F S256x4096 .i32) (x2 : Vec F S256x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__quantize_kernel i arg1 harg1 arg2 harg2 arg3 harg3 arg4 harg4) K := by
  simp only [cc0__quantize_kernel_eq_skeleton]; unfold cc0__quantize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the first grid -/

/-- On core `c`: the arrays as found at entry; after the step at point `t` each input tile still holds its block
    and the output tile holds `out0_3` of the three input blocks; the invariant is the scoped rest and the
    generator register, untouched; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation of the step, at any grid point -/

/-- What the step is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The step at any point: the input tiles hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the step, at every point. -/
theorem body_obligation0 (c : Dev nD) : BodyObligation (dat0 (F := F) V c) (defs₀ (F := F)) Variants.none () Set.univ := fun t => by
  rw [bigSep_W0, bigSep_W0]
  exact sound_body0 V c t

end Quantize

end Cert.KernelIdeal.Hand

end
-- ==== Proof.KI.R1Base.lean ====
/-
  The matrix-product region (the second kernel launch), first part: what every case of its body shares.

  The grid is (16, 2, 8): point t has coordinates (i, j, k) with k = t mod 8 the contraction block. The body
  zeroes its accumulator when k = 0, adds the product of the point's [1024,512] and [2048,512] blocks (contracting
  their second axes) to it at every point, and copies the accumulator into the output block when k = 7. So there
  are three control cases — k = 0, 0 < k < 7, k = 7 — and the output window is idle (neither stored nor written
  back) unless k = 7. Here: the blocks of the two input windows as the region finds them, the two branch
  conditions in closed form, where the output window is idle, and the names of the staging and scratch memrefs.
-/
import proofs.«176794_j40896678593009_2_alg».proof.Proof.Gen.KernelIdeal.Launch
import proofs.«176794_j40896678593009_2_alg».proof.Proof.Gen.KernelIdeal.Skeleton
import proofs.«176794_j40896678593009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the contents of the TensorCore's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block (rows of block i, columns of block k) at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block (rows of block j, columns of block k) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "k = 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the accumulator is copied to the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Unless k = 7 the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x2048 .f32 := (Memref.whole cc1_stg2_0 : Memref sig .tc .vmem S1024x2048 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x2048 .f32 := Memref.whole cc1_scratch0
abbrev VS1_0 : View sig .tc .vmem S1024x2048 .f32 := scM1_0.view

end Cert.KernelIdeal.Hand

end
-- ==== Proof.KI.R1RunA.lean ====
/-
  The matrix-product region's body in the case k = 0 (the accumulator zeroed, then the first product added; the output window idle): on whole staging memrefs holding the point's two input blocks
  the body runs to its end, leaves the inputs as they were, and leaves in the accumulator (and in the output
  buffer, when the case stores it) the listed pieces — found by running the body symbolically, each branch decided
  by the case's hypotheses.
-/
import proofs.«176794_j40896678593009_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in case A, with the body's triple. -/
noncomputable def kernelRun1_A (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunB.lean ====
/-
  The matrix-product region's body in the case 0 < k < 7 (one more product added to the accumulator; the output window idle): on whole staging memrefs holding the point's two input blocks
  the body runs to its end, leaves the inputs as they were, and leaves in the accumulator (and in the output
  buffer, when the case stores it) the listed pieces — found by running the body symbolically, each branch decided
  by the case's hypotheses.
-/
import proofs.«176794_j40896678593009_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in case B, with the body's triple. -/
noncomputable def kernelRun1_B (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunC.lean ====
/-
  The matrix-product region's body in the case k = 7 (the last product added, the accumulator copied to the output block): on whole staging memrefs holding the point's two input blocks
  the body runs to its end, leaves the inputs as they were, and leaves in the accumulator (and in the output
  buffer, when the case stores it) the listed pieces — found by running the body symbolically, each branch decided
  by the case's hypotheses.
-/
import proofs.«176794_j40896678593009_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in case C, with the body's triple. -/
noncomputable def kernelRun1_C (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Region1.lean ====
/-
  The matrix-product region, last part. What the accumulator (and, when k = 7, the output block) holds after each
  grid point, as a recursion over the points: at k = 0 the body's pieces over anything, otherwise the body's pieces
  over what the point before left in the accumulator. The region's invariant before point n is the kernel's other
  scoped buffers at anything, the generator register at some state, and — from the second point on — the
  accumulator at exactly what point n - 1 left. With it: the proof data of the pipeline, the body's obligation at
  every point, and the invariant's two ends.
-/
import proofs.«176794_j40896678593009_2_alg».proof.Proof.KI.R1RunA
import proofs.«176794_j40896678593009_2_alg».proof.Proof.KI.R1RunB
import proofs.«176794_j40896678593009_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The scoped buffers beside the accumulator -/

/-- The first kernel launch's eight staging buffers, each whole at some contents: what the matrix-product body never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant, with the accumulator split off the other scoped buffers. -/
theorem PhiA1_split (c : Dev nD) :
    (Pipeline.ΦA spec1 c : sProp 𝕄) ⊢ iprop(others1 c ∗ (∃ d, owns (c : Thread nD τ) scM1_0 fullShare d) ∗ (∃ r, prngReg c r)) := by
  unfold Pipeline.ΦA others1; rw [scopedRest1_eq]; simp only [scM1_0, owns_whole]
  iintro ⟨⟨H0, H1, H2, H3, H4, H5, H6, H7, HS⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]; · iexact HS
  iexact Hg

/-- And put back. -/
theorem PhiA1_join (c : Dev nD) :
    iprop(others1 c ∗ (∃ d, owns (c : Thread nD τ) scM1_0 fullShare d) ∗ (∃ r, prngReg c r)) ⊢ (Pipeline.ΦA spec1 c : sProp 𝕄) := by
  unfold Pipeline.ΦA others1; rw [scopedRest1_eq]; simp only [scM1_0, owns_whole]
  iintro ⟨⟨H0, H1, H2, H3, H4, H5, H6, H7⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## What each case leaves -/

/-- What an idle point "leaves" in the output buffer: a placeholder nothing consults. -/
def idleOut1 : Vec F S1024x2048 .f32 := VO1_2.read (Elt F) (VO1_2.writes (Elt F) VO1_2.junk [])

theorem scover1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) (y : S1024x2048.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x2048.size (by sl_kernel_rfl) y

/-- The accumulator after a point with k = 0. -/
def sout1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) : Vec F S1024x2048 .f32 :=
  VS1_0.read (Elt F) (VS1_0.writes (Elt F) VS1_0.junk (kernelRun1_A c i arg3 harg3 arg4 harg4 arg5 harg5 arg6 harg6 hc0 hc1 x0 x1).2.1)

theorem scover1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) (y : S1024x2048.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x2048.size (by sl_kernel_rfl) y

/-- The accumulator after a point with 0 < k < 7, over what the point before left. -/
def sout1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_B c i arg3 harg3 arg4 harg4 arg5 harg5 arg6 harg6 hc0 hc1 x0 x1 xs0).2.1)

theorem cover1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x2048.size (by sl_kernel_rfl) y

/-- The output block after a point with k = 7. -/
def out1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VO1_2.read (Elt F) (VO1_2.writes (Elt F) VO1_2.junk (kernelRun1_C c i arg3 harg3 arg4 harg4 arg5 harg5 arg6 harg6 hc0 hc1 x0 x1 xs0).1)

theorem scover1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x2048.size (by sl_kernel_rfl) y

/-- The accumulator after a point with k = 7. -/
def sout1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_C c i arg3 harg3 arg4 harg4 arg5 harg5 arg6 harg6 hc0 hc1 x0 x1 xs0).2.1)

section
variable (V : (c : Dev nD) → (b : Ref sig .tc) → Buf (Elt F) ((c : Thread nD τ).loc b))

/-! ## Point by point -/

/-- What the output's staging buffer and the accumulator hold after the body at position `n` (a pair: output, accumulator). -/
def outsAt1 (c : Dev nD) : (n : ℕ) → n < cfg1.N → Vec F S1024x2048 .f32 × Vec F S1024x2048 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the class invariant (every scoped buffer at anything); afterwards the other
    scoped buffers at anything, the accumulator at what position `n - 1` left, the generator register at some state. -/
def PhiS1 (c : Dev nD) : (n : ℕ) → n ≤ cfg1.N → sProp 𝕄
  | 0, _ => Pipeline.ΦA spec1 c
  | n + 1, hn => iprop(others1 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The arrays as the region finds them; after the body at point `t` each input's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The accumulator handed back at its pieces read back: the pieces cover it. -/
theorem scratch_back (c : Dev nD) (L : List (View.Piece (Elt F) S1024x2048 .f32))
    (hcov : ∀ y : S1024x2048.Idx, ∃ pc ∈ L, y ∈ pc.1.set) :
    (iprop(∃ f, scM1_0.view.loc (c : Thread nD τ) ↦[scM1_0.view.set]{fullShare} scM1_0.view.writes (Elt F) f L) : sProp 𝕄)
      ⊢ owns (c : Thread nD τ) scM1_0 fullShare (VS1_0.read (Elt F) (VS1_0.writes (Elt F) VS1_0.junk L)) := by
  iintro ⟨%es0, HS0⟩
  unfold owns; iexists _; isplitr
  swap; · iexact HS0
  ipureintro; exact View.read_writes_of_cover _ _ _ _ _ hcov

set_option maxHeartbeats 4800000 in
/-- The body at any point: the inputs' memrefs hold their blocks; the closed forms say which case the point is in; the
    invariant hands the body the accumulator at what the point before left (at anything when k = 0, where the body
    overwrites it first) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 8 = 7
  · -- k = 7
    have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_2 sout1_C_0; (try dsimp only)
    rw [PhiS1_castSucc V c t, PhiS1_pos V c _ _ hz]
    iintro ⟨⟨HR, HS0, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HR HS0 Hg]
    · isplitl [HR]; · iexact HR
      isplitl [HS0]
      · iapply (scratch_back c _ (scover1_C_0 c _ _ _ _ _ _ _ _ _ _ _ _ _ _))
        iexact HS0
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · -- the output window idle
    rw [Dat.leavesExact_idle (dat1 V c) 2 t (idleAt1_2 t (fun h => h1 ((hcond1_1 t).mp h))) (noFlush1_2 t (fun h => h1 ((hcond1_1 t).mp h)))]
    by_cases h0 : t.val % 8 = 0
    · -- k = 0
      rw [outsAt1_A V c t h0 h1]
      unfold sout1_A_0; (try dsimp only)
      rw [PhiS1_castSucc V c t]
      have hΦ : PhiS1 V c t.val (Nat.le_of_lt t.isLt) ⊢ (iprop(others1 c ∗ (∃ d, owns (c : Thread nD τ) scM1_0 fullShare d) ∗ (∃ r, prngReg c r)) : sProp 𝕄) := by
        by_cases hz : t.val = 0
        · rw [PhiS1_zero V c _ _ hz]; exact PhiA1_split c
        · rw [PhiS1_pos V c _ _ hz]
          iintro ⟨HR, HS0, Hg⟩
          isplitl [HR]; · iexact HR
          isplitl [HS0]; · iexists _; iexact HS0
          iexact Hg
      iintro ⟨HΦ, Ho, ⟨%d0, H0⟩, ⟨%d1, H1⟩, ⟨%d2, H2⟩⟩
      ihave HΦ' := hΦ $$ HΦ
      icases HΦ' with ⟨HR, HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, HS0⟩
      isplitl [HR HS0 Hg]
      · isplitl [HR]; · iexact HR
        isplitl [HS0]
        · iapply (scratch_back c _ (scover1_A_0 c _ _ _ _ _ _ _ _ _ _ _ _ _))
          iexact HS0
        iexact Hg
      isplitl [Ho]; · iexact Ho
      isplitl [H0]; · iexact H0
      isplitl [H1]; · iexact H1
      iexists _; iexact H2
    · -- 0 < k < 7
      have hz : t.val ≠ 0 := by omega
      rw [outsAt1_B V c t h0 h1]
      unfold sout1_B_0; (try dsimp only)
      rw [PhiS1_castSucc V c t, PhiS1_pos V c _ _ hz]
      iintro ⟨⟨HR, HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, HS0⟩
      isplitl [HR HS0 Hg]
      · isplitl [HR]; · iexact HR
        isplitl [HS0]
        · iapply (scratch_back c _ (scover1_B_0 c _ _ _ _ _ _ _ _ _ _ _ _ _ _))
          iexact HS0
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  iintro ⟨HR, HS0, Hg⟩
  iapply (PhiA1_join c)
  isplitl [HR]; · iexact HR
  isplitl [HS0]; · iexists _; iexact HS0
  iexact Hg

end

end Cert.KernelIdeal.Hand

end
-- ==== Proof.KI.Run.lean ====
import proofs.«176794_j40896678593009_2_alg».proof.Proof.KI.Region0
import proofs.«176794_j40896678593009_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: host line, first grid, host line, second grid, host line

## The buffer contents at each boundary, folded from the launch memory -/

/-- Core `c`'s buffers at launch. -/
abbrev W0 : Dev nD → Valuation τ sig (Elt F) := fun c b => (s₀ m ρ).mem ((c : Dev nD), b)
/-- After the first host line (the row scales laid out as a column): what the first grid is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When the first grid is left: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host line (the activations flattened to rows and rounded): what the second grid is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the second grid is left. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host line (the product reshaped to the result's shape): the contents at the return. -/
abbrev W5 : Dev nD → Valuation τ sig (Elt F) := fun c => StableHlo.after hostOps2 (W4 m ρ c)

/-! ### The four arguments end as launched: no host line writes one, and a grid either reads it through an
    input window or never touches it -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data of both grids and the state that rides along -/

/-- Neither grid has a prefetched table. -/
abbrev adm : (p : Fin 2) → (pcfgs (F := F) p).Adm := fun p => (cfgs p).toPCfg_adm
/-- Each grid's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host line as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the contents at the return, the generator
    register at some state. -/
abbrev Tₙ (c : Dev nD) : sProp 𝕄 := iprop(StableHlo.held (c : Thread nD τ) (Pipeline.ucRefs τ sig) (W5 m ρ c) ∗ ∃ r, prngReg c r)

/-- The generator register, anything, and the scoped rest make the plain invariant of the second grid; -/
theorem intoΦA1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and that invariant gives them back. -/
theorem outofΦA1 (c : Dev nD) :
    (Pipeline.ΦA spec1 c : sProp 𝕄)
      ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr
/-- The state the last host line leaves is the last thread state beside nothing owed. -/
theorem last_state (c : Dev nD) :
    iprop(StableHlo.held (c : Thread nD τ) (Pipeline.ucRefs τ sig) (W5 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two grids as segments -/

set_option backward.isDefEq.respectTransparency.types false in
/-- The first grid: entered from every unscoped buffer at `W1`, left at `W2`. Its arrays are split out of the
    unscoped buffers and put back at their exit contents; the generator register goes into the invariant and
    comes back; nothing is owed; the step has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second grid: entered from every unscoped buffer at `W3`, left at `W4`. Its invariant follows the
    accumulator it keeps between grid points; it starts from, and ends at, the scoped rest and the generator
    register (`hin1`, `hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA1 c _).trans (hin1 (V3 m ρ) c)
  hout c := by
    rw [Pipeline.ownSems0_none]
    exact (hout1 (V3 m ρ) c).trans (outofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution on the cores terminates without fault, and
    at the end every unscoped buffer of every core holds the folded contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.Frames.lean ====
import proofs.«176794_j40896678593009_2_alg».proof.Defs
import proofs.«176794_j40896678593009_2_alg».proof.Proof.K.Run
import proofs.«176794_j40896678593009_2_alg».proof.Proof.KI.Run
import proofs.«176794_j40896678593009_2_alg».proof.Proof.Gen.Kernel
import proofs.«176794_j40896678593009_2_alg».proof.Proof.Gen.KernelIdeal
import proofs.«176794_j40896678593009_2_alg».proof.Proof.Gen.Pre_finite_inputs

/-!
The program of two grids runs to the end without fault and leaves its four argument arrays as they were, read over
machine words and read over the extended reals: the run of the five segments (host line, first grid, host line,
second grid, host line) with every unscoped buffer followed from the launch memory, projected to the arguments.
-/

noncomputable section

namespace Cert.Proof

open Idealize.ShloMosaic Idealize.SL.Sem

/-- Over machine words. -/
theorem frame_k : Cert.frame_Kernel := fun m ρ _ => Cert.Kernel.Hand.frame m ρ

/-- Over the extended reals. -/
theorem frame_ki : Cert.frame_KernelIdeal := fun m ρ _ => Cert.KernelIdeal.Hand.frame m ρ

end Cert.Proof

end
-- ==== Proof.RefFrame.lean ====
import proofs.«176794_j40896678593009_2_alg».proof.Defs
import proofs.«176794_j40896678593009_2_alg».proof.Proof.Gen.ReferenceIdeal.Run
import proofs.«176794_j40896678593009_2_alg».proof.Proof.Gen.Pre_finite_inputs

/-!
The reference program runs and leaves its four argument arrays as they were: the last four conjuncts of what its
run states.
-/

noncomputable section

namespace Cert.ReferenceIdeal.RefValue

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.KI.R1Pieces.lean ====
/-
  The matrix-product body's pieces, read back. Every store of the body is through the whole rectangle of its
  buffer, so what a buffer holds after a point is the payload of the last store into it: the accumulator ends at
  "previous accumulator + product of the point's two blocks" — over zero when k = 0, where the body has just
  zeroed it — and when k = 7 the output block is a copy of that.
-/
import proofs.«176794_j40896678593009_2_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- k = 0: the accumulator ends at zero plus the first product. -/
theorem sout1_A_0_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) :
    sout1_A_0 c i arg3 harg3 arg4 harg4 arg5 harg5 arg6 harg6 hc0 hc1 x0 x1 = k1_pay2 x0 x1 (k1_pay1 (F := F)) := by
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  rw [View.canon_cons_unit_zero (S := S1024x2048) hz2, View.readCov_unit_zero (S := S1024x2048) _ hz2]
  simp only [View.readAt_eq_ld, harg3.read_unread, harg4.read_unread, harg6.read_unread, View.ld_unit_zero (S := S1024x512) hz2, View.ld_unit_zero (S := S2048x512) hz2, View.ld_unit_zero (S := S1024x2048) hz2]

/-- 0 < k < 7: the accumulator ends at what it held plus this point's product. -/
theorem sout1_B_0_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  rw [View.canon_unit_zero (S := S1024x2048) hz2]
  simp only [View.readAt_eq_ld, harg3.read_unread, harg4.read_unread, harg6.read_unread, View.ld_unit_zero (S := S1024x512) hz2, View.ld_unit_zero (S := S2048x512) hz2, View.ld_unit_zero (S := S1024x2048) hz2]

/-- k = 7: the same for the accumulator, -/
theorem sout1_C_0_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) :
    sout1_C_0 c i arg3 harg3 arg4 harg4 arg5 harg5 arg6 harg6 hc0 hc1 x0 x1 xs0 = k1_pay2 x0 x1 xs0 := by
  unfold sout1_C_0
  rw [View.read_writes_eq_canon _ _ _ (scover1_C_0 c i arg3 harg3 arg4 harg4 arg5 harg5 arg6 harg6 hc0 hc1 x0 x1 xs0)]
  unfold kernelRun1_C
  dsimp only
  sl_unfold_words
  rw [View.canon_unit_zero (S := S1024x2048) hz2]
  simp only [View.readAt_eq_ld, harg3.read_unread, harg4.read_unread, harg6.read_unread, View.ld_unit_zero (S := S1024x512) hz2, View.ld_unit_zero (S := S2048x512) hz2, View.ld_unit_zero (S := S1024x2048) hz2]

/-- and the output block is the accumulator's new contents. -/
theorem out1_C_2_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) :
    out1_C_2 c i arg3 harg3 arg4 harg4 arg5 harg5 arg6 harg6 hc0 hc1 x0 x1 xs0 = k1_pay2 x0 x1 xs0 := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero (S := S1024x2048) hz2, View.readCov_unit_zero (S := S1024x2048) _ hz2]
  simp only [View.readAt_eq_ld, harg3.read_unread, harg4.read_unread, harg6.read_unread, View.ld_unit_zero (S := S1024x512) hz2, View.ld_unit_zero (S := S2048x512) hz2, View.ld_unit_zero (S := S1024x2048) hz2]

end Cert.KernelIdeal.Hand

end
-- ==== Proof.LibDenseT.lean ====
/-
  A matrix product with the right operand transposed, read at an index.

  For `l : [A, K]` and `r : [B, K]` the product with dimension numbers "contract axis 1 of the left with axis 1 of the
  right, no batch axes" — the product `l · rᵀ`, on the matrix unit (into a zero accumulator) and on the host alike — is, at the ideal instance and at the element `(a, b)`, the exact sum
  over `k` of `l (a, k) · r (b, k)`. General in `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.DenseT

open Idealize.ShloMosaic Idealize.ShloMosaic.ValueIdx

/-- The dimension numbers of `l · rᵀ` for `l : [A, K]`, `r : [B, K]`. -/
abbrev denseTDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

section
variable {A K B : Nat} (wf : DotDims.WF ⟨2, ![A, K]⟩ ⟨2, ![B, K]⟩ ⟨2, ![A, B]⟩ [1] [1] [0] [0] [] [])

/-- The left operand's row is the result's row … -/
theorem denseT_lhs0 (i : (⟨2, ![A, B]⟩ : Shape).Idx) (q : (denseTDims A K B wf).contr.Idx) :
    ((denseTDims A K B wf).lhsIdx i q 0).val = (i 0).val := by
  unfold DotDims.lhsIdx
  rw [dif_neg (show ¬(0 : Fin 2) ∈ (denseTDims A K B wf).lhsBatch from List.not_mem_nil),
    dif_pos (show (0 : Fin 2) ∈ (denseTDims A K B wf).lhsNonContracting from List.mem_singleton.mpr rfl)]
  rfl

/-- … and its column the contraction coordinate. -/
theorem denseT_lhs1 (i : (⟨2, ![A, B]⟩ : Shape).Idx) (q : (denseTDims A K B wf).contr.Idx) :
    ((denseTDims A K B wf).lhsIdx i q 1).val = (q ⟨0, (Nat.one_pos : 0 < 1)⟩).val :=
  (denseTDims A K B wf).lhsIdx_val_of_single rfl i q

/-- The right operand's row is the result's column … -/
theorem denseT_rhs0 (i : (⟨2, ![A, B]⟩ : Shape).Idx) (q : (denseTDims A K B wf).contr.Idx) :
    ((denseTDims A K B wf).rhsIdx i q 0).val = (i 1).val := by
  unfold DotDims.rhsIdx
  rw [dif_neg (show ¬(0 : Fin 2) ∈ (denseTDims A K B wf).rhsBatch from List.not_mem_nil),
    dif_pos (show (0 : Fin 2) ∈ (denseTDims A K B wf).rhsNonContracting from List.mem_singleton.mpr rfl)]
  rfl

/-- … and its column the contraction coordinate. -/
theorem denseT_rhs1 (i : (⟨2, ![A, B]⟩ : Shape).Idx) (q : (denseTDims A K B wf).contr.Idx) :
    ((denseTDims A K B wf).rhsIdx i q 1).val = (q ⟨0, (Nat.one_pos : 0 < 1)⟩).val :=
  (denseTDims A K B wf).rhsIdx_val_of_single rfl i q

/-- The contraction's sum, re-indexed by its one coordinate. -/
theorem denseT_sum {φ₁ φ₂ : FTy} (l : FVec Ideal ⟨2, ![A, K]⟩ φ₁) (r : FVec Ideal ⟨2, ![B, K]⟩ φ₂) (a : Fin A) (b : Fin B) :
    (∑ q : (denseTDims A K B wf).contr.Idx,
        l ((denseTDims A K B wf).lhsIdx (ix2 a b) q) * r ((denseTDims A K B wf).rhsIdx (ix2 a b) q))
      = ∑ k : Fin K, l (ix2 a k) * r (ix2 b k) := by
  rw [← Equiv.sum_comp (contrEquiv1 (denseTDims A K B wf) K rfl rfl).symm]
  refine Finset.sum_congr rfl fun k _ => ?_
  have hk := contrEquiv1_symm_val (denseTDims A K B wf) K rfl rfl k
  have el : (denseTDims A K B wf).lhsIdx (ix2 a b) ((contrEquiv1 (denseTDims A K B wf) K rfl rfl).symm k) = ix2 a k :=
    funext fun x => Fin.ext (by
      match x with
      | ⟨0, _⟩ => exact denseT_lhs0 wf _ _
      | ⟨1, _⟩ => exact (denseT_lhs1 wf _ _).trans hk)
  have er : (denseTDims A K B wf).rhsIdx (ix2 a b) ((contrEquiv1 (denseTDims A K B wf) K rfl rfl).symm k) = ix2 b k :=
    funext fun x => Fin.ext (by
      match x with
      | ⟨0, _⟩ => exact denseT_rhs0 wf _ _
      | ⟨1, _⟩ => exact (denseT_rhs1 wf _ _).trans hk)
  rw [el, er]

/-- THE MATRIX UNIT'S PRODUCT into a zero accumulator, read at `(a, b)`. -/
theorem denseT_matmul_apply {φ₁ φ₂ : FTy} (prec : Option ContractPrecision)
    (l : FVec Ideal ⟨2, ![A, K]⟩ φ₁) (r : FVec Ideal ⟨2, ![B, K]⟩ φ₂) (a : Fin A) (b : Fin B) :
    FloatOps.matmul (denseTDims A K B wf) prec l r (constant (F := Ideal) ⟨2, ![A, B]⟩ .f32 0x00000000#32) (ix2 a b)
      = ∑ k : Fin K, l (ix2 a k) * r (ix2 b k) := by
  rw [Ideal.matmul_constant_zero_apply]
  exact denseT_sum wf l r a b

/-- THE HOST'S PRODUCT, read at `(a, b)`. -/
theorem denseT_dotGeneral_apply {φ₁ φ₂ : FTy} (prec : Option ContractPrecision) (sched : HostSchedule)
    (l : FVec Ideal ⟨2, ![A, K]⟩ φ₁) (r : FVec Ideal ⟨2, ![B, K]⟩ φ₂) (a : Fin A) (b : Fin B) :
    FloatOps.dotGeneral (denseTDims A K B wf) prec sched l r (ix2 a b) = ∑ k : Fin K, l (ix2 a k) * r (ix2 b k) := by
  rw [Ideal.dotGeneral_apply]
  exact denseT_sum wf l r a b

end

end Cert.Lib.DenseT

end
-- ==== Proof.KI.R1Payload.lean ====
/-
  The matrix-product body's arithmetic at an index, at the ideal instance: the zeroing payload is zero everywhere,
  and the accumulating payload at (p, q) is the accumulator's entry plus the sum over the 512 columns of the two
  blocks' rows p and q multiplied entry by entry (the product contracts the second axis of both blocks).
-/
import proofs.«176794_j40896678593009_2_alg».proof.Proof.Gen.KernelIdeal.Skeleton
import proofs.«176794_j40896678593009_2_alg».proof.Proof.LibDenseT
import Idealize.ShloMosaic.Lib.Pipeline.Value
import Idealize.ShloMosaic.Lib.ValueIdx

noncomputable section

open scoped BigOperators

namespace Cert.KernelIdeal.Hand

open Idealize.ShloMosaic Idealize.ShloMosaic.ValueIdx
open Cert.KernelIdeal Cert.KernelIdeal.Gen

theorem pay1_apply (y : S1024x2048.Idx) : k1_pay1 (F := Ideal) y = 0 := by
  unfold k1_pay1
  rw [shapeCast_self]
  exact Ideal.ofBits_zero_f32

theorem pay2_apply (x0 : FVec Ideal S1024x512 .bf16) (x1 : FVec Ideal S2048x512 .bf16) (acc : FVec Ideal S1024x2048 .f32)
    (p : Fin 1024) (q : Fin 2048) :
    k1_pay2 (F := Ideal) x0 x1 acc (ix2 p q) = acc (ix2 p q) + ∑ j : Fin 512, x0 (ix2 p j) * x1 (ix2 q j) := by
  unfold k1_pay2
  simp only [shapeCast_self]
  rw [addf_apply]
  exact congrArg (acc (ix2 p q) + ·)
    (Cert.Lib.DenseT.denseT_matmul_apply dot_S1024x512_S2048x512_S1024x2048_1_1_0_0_n_n_wf none x0 x1 p q)

end Cert.KernelIdeal.Hand

end
-- ==== Proof.LibNatIdx.lean ====
/-
  A matrix read at natural-number coordinates: the entry when both coordinates are in range, zero otherwise. Block
  arithmetic (row = block × block height + row inside the block) is then arithmetic on naturals, with no bound
  carried inside the terms.
-/
import Idealize.ShloMosaic.PureOps.Ideal
import Idealize.ShloMosaic.Lib.ValueIdx

noncomputable section

namespace Cert.Hand

open Idealize.ShloMosaic Idealize.ShloMosaic.ValueIdx

/-- `X` at row `a`, column `b`; zero outside the matrix. -/
def at2 {R C : ℕ} {α : Type} [Zero α] (X : (⟨2, ![R, C]⟩ : Shape).Idx → α) (a b : ℕ) : α :=
  if h : a < R ∧ b < C then X (ix2 ⟨a, h.1⟩ ⟨b, h.2⟩) else 0

theorem at2_ix2 {R C : ℕ} {α : Type} [Zero α] (X : (⟨2, ![R, C]⟩ : Shape).Idx → α) (a : Fin R) (b : Fin C) :
    at2 X a.val b.val = X (ix2 a b) := by
  unfold at2; rw [dif_pos ⟨a.isLt, b.isLt⟩]

theorem at2_of {R C : ℕ} {α : Type} [Zero α] (X : (⟨2, ![R, C]⟩ : Shape).Idx → α) (i : (⟨2, ![R, C]⟩ : Shape).Idx)
    (a b : ℕ) (ha : (i 0).val = a) (hb : (i 1).val = b) : X i = at2 X a b := by
  obtain ⟨a', b', rfl⟩ : ∃ (a' : Fin R) (b' : Fin C), i = ix2 a' b' := ⟨i 0, i 1, eq_ix2 i⟩
  have ha' : a'.val = a := ha
  have hb' : b'.val = b := hb
  subst ha'; subst hb'
  exact (at2_ix2 X a' b').symm

end Cert.Hand

end
-- ==== Proof.LibRefSums.lean ====
/-
  Two facts about finite sums over consecutive naturals.

  A sum over the `T * B` naturals below `T * B` is the sum over the `T` blocks of `B` consecutive ones; a sum over
  the `a + b` naturals below `a + b` whose terms vanish from `a` on is the sum over the first `a`.
-/
import Mathlib.Algebra.BigOperators.Fin
import Mathlib.Logic.Equiv.Fin.Basic

open scoped BigOperators

namespace Cert.Lib.RefSums

/-- The index `B * t + j` of entry `j` of block `t` is below `T * B`. -/
theorem block_index_lt {T B : ℕ} (t : Fin T) (j : Fin B) : B * t.val + j.val < T * B := by
  have ht := t.isLt
  have hj := j.isLt
  calc B * t.val + j.val < B * t.val + B := by omega
    _ = B * (t.val + 1) := by rw [Nat.mul_add, Nat.mul_one]
    _ ≤ B * T := Nat.mul_le_mul_left _ (by omega)
    _ = T * B := Nat.mul_comm _ _

/-- A sum over `Fin (T * B)`, taken block by block: block `t` holds the indices `B * t + j`, `j < B`. -/
theorem sum_fin_mul {M : Type*} [AddCommMonoid M] (T B : ℕ) (g : Fin (T * B) → M) :
    ∑ k : Fin (T * B), g k = ∑ t : Fin T, ∑ j : Fin B, g ⟨B * t.val + j.val, block_index_lt t j⟩ := by
  rw [← Equiv.sum_comp finProdFinEquiv g, Fintype.sum_prod_type]
  refine Finset.sum_congr rfl fun t _ => Finset.sum_congr rfl fun j _ => congrArg g (Fin.ext ?_)
  show j.val + B * t.val = B * t.val + j.val
  omega

/-- A sum over `Fin (a + b)` whose terms vanish from index `a` on is the sum of its first `a` terms. -/
theorem sum_fin_add_of_zero {M : Type*} [AddCommMonoid M] (a b : ℕ) (g : Fin (a + b) → M)
    (hz : ∀ i : Fin b, g (Fin.natAdd a i) = 0) :
    ∑ k : Fin (a + b), g k = ∑ i : Fin a, g (Fin.castAdd b i) := by
  rw [Fin.sum_univ_add, Finset.sum_eq_zero (fun i _ => hz i), add_zero]

end Cert.Lib.RefSums
-- ==== Proof.LibAccBlocks.lean ====
import proofs.«176794_j40896678593009_2_alg».proof.Proof.LibRefSums

/-!
A sum of `T · B` terms taken in `T` passes of `B` consecutive terms, each pass added to a running total that
starts from zero: the total after the last pass is the whole sum. Only commutativity and associativity of the
addition are used, so it holds in the extended reals with no finiteness assumption.
-/

noncomputable section

open scoped BigOperators

namespace Cert.Hand.BlockSum

open Cert.Lib.RefSums

variable {M : Type*} [AddCommMonoid M]

/-- The running total after pass `n`: zero plus pass `0`, then each later pass added on the right. -/
def accK (m : ℕ → M) : ℕ → M
  | 0 => 0 + m 0
  | n + 1 => accK m n + m (n + 1)

@[simp] theorem accK_zero (m : ℕ → M) : accK m 0 = 0 + m 0 := rfl
@[simp] theorem accK_succ (m : ℕ → M) (n : ℕ) : accK m (n + 1) = accK m n + m (n + 1) := rfl

/-- The running total after pass `n` is the sum of passes `0, …, n`. -/
theorem accK_eq_sum_range (m : ℕ → M) (n : ℕ) : accK m n = ∑ t ∈ Finset.range (n + 1), m t := by
  induction n with
  | zero => rw [accK_zero, zero_add, Finset.sum_range_one]
  | succ n ih => rw [accK_succ, ih, Finset.sum_range_succ _ (n + 1)]

/-- The same, over `Fin (n + 1)`. -/
theorem accK_eq_sum_fin (m : ℕ → M) (n : ℕ) : accK m n = ∑ t : Fin (n + 1), m t.val := by
  rw [accK_eq_sum_range, Finset.sum_range]

/-- `T + 1` passes of `B` consecutive terms of `g`: the running total after the last pass is the sum of `g`. -/
theorem accK_blocks (T B : ℕ) (g : Fin ((T + 1) * B) → M) (m : ℕ → M)
    (hm : ∀ t : Fin (T + 1), m t.val = ∑ j : Fin B, g ⟨B * t.val + j.val, block_index_lt t j⟩) :
    accK m T = ∑ k : Fin ((T + 1) * B), g k := by
  rw [accK_eq_sum_fin, sum_fin_mul (T + 1) B g]
  exact Finset.sum_congr rfl fun t _ => hm t

/-- Entry `j` of pass `t`, of eight passes of 512, is below 4096. -/
theorem idx_lt (t : Fin 8) (j : Fin 512) : 512 * t.val + j.val < 4096 := by
  have := t.isLt; have := j.isLt; omega

/-- Eight passes of 512 terms: the running total after pass 7 is the sum of all 4096 terms. -/
theorem accK_8x512 (g : Fin 4096 → M) (m : ℕ → M)
    (hm : ∀ t : Fin 8, m t.val = ∑ j : Fin 512, g ⟨512 * t.val + j.val, idx_lt t j⟩) :
    accK m 7 = ∑ i : Fin 4096, g i :=
  accK_blocks 7 512 g m hm

end Cert.Hand.BlockSum

end
-- ==== Proof.Spec.lean ====
import Idealize.ShloMosaic.PureOps.Ideal
import Idealize.ShloMosaic.Lib.ValueIdx

/-!
The mathematical content of the statement, index by index, over the extended reals.

Inputs: an activation `x` of shape `[8, 2048, 4096]`, a base weight of shape `[4096, 4096]`, a word
`s o i` per weight entry (its sign bit, read as a signed integer) and one scale per weight row.
The effective weight is `W o i = base o i + (s o i · 2 − 1) · scale o` and the result is
`G b r o = ∑ i, x b r i · W o i`. The same sum can be taken on the activation flattened to
`[16384, 4096]` (row `2048 · b + r`), which is how a tiled product reads it.
-/

noncomputable section

open scoped BigOperators

namespace Cert.Hand.Spec

open Idealize.ShloMosaic Idealize.ShloMosaic.ValueIdx

/-- The activation's shape. -/
abbrev SX : Shape := ⟨3, ![8, 2048, 4096]⟩
/-- The weight's shape. -/
abbrev SW : Shape := ⟨2, ![4096, 4096]⟩
/-- The scale vector's shape. -/
abbrev SV : Shape := ⟨1, ![4096]⟩
/-- The flattened activation's shape. -/
abbrev S2 : Shape := ⟨2, ![16384, 4096]⟩

/-! ## The two float literals and the integer conversion, as extended reals -/

/-- The pattern `0x3F800000` denotes `1`. -/
theorem ofBits_one : Ideal.ofBits .f32 0x3F800000#32 = 1 := by
  simp [Ideal.ofBits, Ideal.ieee, -EReal.coe_mul]; norm_num

/-- The pattern `0x40000000` denotes `2`. -/
theorem ofBits_two : Ideal.ofBits .f32 0x40000000#32 = 2 := by
  simp [Ideal.ofBits, Ideal.ieee, -EReal.coe_mul]; norm_num; norm_cast

/-- The scalar constant `1.0`. -/
theorem scalar_one : (Scalar.ofBits .f32 0x3F800000#32 : Ideal .f32) = 1 := ofBits_one
/-- The scalar constant `2.0`. -/
theorem scalar_two : (Scalar.ofBits .f32 0x40000000#32 : Ideal .f32) = 2 := ofBits_two

/-- A word converted to a float is the signed integer it denotes. -/
theorem sitofp_eq (φ : FTy) (b : BitVec 32) : (FloatOps.sitofp φ b : Ideal φ) = ((b.toInt : ℝ) : EReal) := rfl

/-! ## The weight -/

/-- Entry `(o, i)` of the effective weight. -/
def wgtAt (base : SW.Idx → EReal) (s : SW.Idx → BitVec 32) (scale : SV.Idx → EReal) (o i : Fin 4096) : EReal :=
  base (ix2 o i) + ((((s (ix2 o i)).toInt : ℝ) : EReal) * 2 - 1) * scale (ix1 o)

/-- The effective weight: the base plus the sign (`2 s − 1`) times the row's scale. -/
def wgt (base : SW.Idx → EReal) (s : SW.Idx → BitVec 32) (scale : SV.Idx → EReal) : SW.Idx → EReal :=
  fun j => wgtAt base s scale (j 0) (j 1)

theorem wgt_ix2 (base : SW.Idx → EReal) (s : SW.Idx → BitVec 32) (scale : SV.Idx → EReal) (o i : Fin 4096) :
    wgt base s scale (ix2 o i)
      = base (ix2 o i) + ((((s (ix2 o i)).toInt : ℝ) : EReal) * 2 - 1) * scale (ix1 o) := rfl

/-- The weight at any index, in the index's own coordinates. -/
theorem wgt_apply (base : SW.Idx → EReal) (s : SW.Idx → BitVec 32) (scale : SV.Idx → EReal) (j : SW.Idx) :
    wgt base s scale j = base j + ((((s j).toInt : ℝ) : EReal) * 2 - 1) * scale (ix1 (j 0)) := by
  rw [eq_ix2 j]; rfl

/-! ## The product, on the flattened activation and on the activation itself -/

/-- Row `r` of `a` against row `o` of `w`. -/
def out2At (a : S2.Idx → EReal) (w : SW.Idx → EReal) (r : Fin 16384) (o : Fin 4096) : EReal :=
  ∑ i : Fin 4096, a (ix2 r i) * w (ix2 o i)

/-- The product of a `[16384, 4096]` matrix with the transpose of a `[4096, 4096]` one. -/
def out2 (a : S2.Idx → EReal) (w : SW.Idx → EReal) : S2.Idx → EReal :=
  fun j => out2At a w (j 0) (j 1)

theorem out2_ix2 (a : S2.Idx → EReal) (w : SW.Idx → EReal) (r : Fin 16384) (o : Fin 4096) :
    out2 a w (ix2 r o) = ∑ i : Fin 4096, a (ix2 r i) * w (ix2 o i) := rfl

/-- Entry `(b, r, o)` of the result. -/
def GAt (x : SX.Idx → EReal) (base : SW.Idx → EReal) (s : SW.Idx → BitVec 32) (scale : SV.Idx → EReal)
    (b : Fin 8) (r : Fin 2048) (o : Fin 4096) : EReal :=
  ∑ i : Fin 4096, x (ix3 b r i) * wgt base s scale (ix2 o i)

/-- The result: every activation row against every row of the effective weight. -/
def G (x : SX.Idx → EReal) (base : SW.Idx → EReal) (s : SW.Idx → BitVec 32) (scale : SV.Idx → EReal) :
    SX.Idx → EReal :=
  fun j => GAt x base s scale (j 0) (j 1) (j 2)

theorem G_ix3 (x : SX.Idx → EReal) (base : SW.Idx → EReal) (s : SW.Idx → BitVec 32) (scale : SV.Idx → EReal)
    (b : Fin 8) (r : Fin 2048) (o : Fin 4096) :
    G x base s scale (ix3 b r o) = ∑ i : Fin 4096, x (ix3 b r i) * wgt base s scale (ix2 o i) := rfl

/-! ## Through the two reshapes -/

/-- The activation flattened to `[16384, 4096]`: row `q` is `(q / 2048, q % 2048)`. -/
def flat (x : SX.Idx → EReal) : S2.Idx → EReal :=
  fun j => x (ix3 (⟨(j 0).val / 2048, by have := idx2_lt0 j; omega⟩ : Fin 8)
    (⟨(j 0).val % 2048, Nat.mod_lt _ (by norm_num)⟩ : Fin 2048)
    (⟨(j 1).val, idx2_lt1 j⟩ : Fin 4096))

/-- Row `2048 b + r` of the flattened activation, as a row index. -/
def row (b : Fin 8) (r : Fin 2048) : Fin 16384 := ⟨2048 * b.val + r.val, by have := b.isLt; have := r.isLt; omega⟩

theorem flat_row (x : SX.Idx → EReal) (b : Fin 8) (r : Fin 2048) (i : Fin 4096) :
    flat x (ix2 (row b r) i) = x (ix3 b r i) := by
  show x (ix3 _ _ _) = _
  congr 1
  have hb := b.isLt
  have hr := r.isLt
  have h1 : (2048 * b.val + r.val) / 2048 = b.val := by omega
  have h2 : (2048 * b.val + r.val) % 2048 = r.val := by omega
  funext a
  match a with
  | ⟨0, _⟩ => exact Fin.ext h1
  | ⟨1, _⟩ => exact Fin.ext h2
  | ⟨2, _⟩ => rfl

/-- The product on the flattened activation, at row `2048 b + r`, is the sum over the activation's own row. -/
theorem out2_flat (x : SX.Idx → EReal) (w : SW.Idx → EReal) (b : Fin 8) (r : Fin 2048) (o : Fin 4096) :
    out2 (flat x) w (ix2 (row b r) o) = ∑ i : Fin 4096, x (ix3 b r i) * w (ix2 o i) := by
  rw [out2_ix2]
  exact Finset.sum_congr rfl fun i _ => by rw [flat_row]

/-- With the effective weight it is the result. -/
theorem out2_flat_wgt (x : SX.Idx → EReal) (base : SW.Idx → EReal) (s : SW.Idx → BitVec 32) (scale : SV.Idx → EReal)
    (b : Fin 8) (r : Fin 2048) (o : Fin 4096) :
    out2 (flat x) (wgt base s scale) (ix2 (row b r) o) = G x base s scale (ix3 b r o) := by
  rw [out2_flat, G_ix3]

end Cert.Hand.Spec

end
-- ==== Proof.KI.R1Value.lean ====
/-
  What the matrix-product region leaves in its output array, at the ideal instance.

  Write A for the [16384, 4096] left operand and W for the [4096, 4096] right operand as the region finds them. At
  grid point t = (i, j, k) the body reads rows 1024·i … of A and rows 2048·j … of W, columns 512·k … of both. By
  induction over the points, after point t the accumulator holds at (p, q)
      ((0 + M 0) + M 1) + … + M k,     M κ = Σ_{c < 512} A(1024·i + p, 512·κ + c) · W(2048·j + q, 512·κ + c),
  because a point with k > 0 continues the point before it (same i and j, κ = k - 1). At k = 7 this is written to
  block (i, j) of the output, and the eight block sums are the sum over all 4096 columns: the output array ends at
  out(r, o) = Σ_c A(r, c) · W(o, c). The blocks written back at the points with k = 7 tile the array.
-/
import proofs.«176794_j40896678593009_2_alg».proof.Proof.KI.R1Pieces
import proofs.«176794_j40896678593009_2_alg».proof.Proof.KI.R1Payload
import proofs.«176794_j40896678593009_2_alg».proof.Proof.LibNatIdx
import proofs.«176794_j40896678593009_2_alg».proof.Proof.LibAccBlocks
import proofs.«176794_j40896678593009_2_alg».proof.Proof.Spec

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Hand

/-- The block sum M κ for output entry (r, o). -/
def M1 (A : S16384x4096.Idx → EReal) (W : S4096x4096.Idx → EReal) (r o : ℕ) (κ : ℕ) : EReal :=
  ∑ j : Fin 512, at2 A r (512 * κ + j.val) * at2 W o (512 * κ + j.val)

/-- The printed index maps over the grid: the left operand's block is (t / 16, t mod 8), the right operand's
    ((t / 8) mod 2, t mod 8), the output's (t / 16, (t / 8) mod 2). -/
theorem idx_facts1 : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

section
variable (V : (c : Dev nD) → (b : Ref sig .tc) → Buf (Elt Ideal) ((c : Thread nD τ).loc b)) (c : Dev nD)

/-- The two operands as the region finds them. -/
abbrev arrA : S16384x4096.Idx → EReal := V c main_v3
abbrev arrW : S4096x4096.Idx → EReal := V c main_v1

/-- The two input blocks at a point, as matrices of extended reals. -/
abbrev blkA (t : Fin cfg1.N) : FVec Ideal S1024x512 .bf16 := iblk1 V c 0 t
abbrev blkW (t : Fin cfg1.N) : FVec Ideal S2048x512 .bf16 := iblk1 V c 1 t

/-- The left operand's block at a point, entry by entry. -/
theorem blk0_apply (t : Fin cfg1.N) (p : Fin 1024) (j : Fin 512) :
    blkA V c t (ix2 p j) = at2 (arrA V c) (1024 * (t.val / 16) + p.val) (512 * (t.val % 8) + j.val) := by
  obtain ⟨e0, e1, -, -, -, -⟩ := idx_facts1 t
  show arrA V c (((cfg1.win 0).blk t).view.emb (ix2 p j)) = _
  refine at2_of (R := 16384) (C := 4096) (α := EReal) (arrA V c) _ _ _ ?_ ?_
  · show win1_0.index t (0 : Fin 2) * 1024 + 1 * p.val = _; omega
  · show win1_0.index t (1 : Fin 2) * 512 + 1 * j.val = _; omega

/-- The right operand's block at a point, entry by entry. -/
theorem blk1_apply (t : Fin cfg1.N) (q : Fin 2048) (j : Fin 512) :
    blkW V c t (ix2 q j) = at2 (arrW V c) (2048 * (t.val / 8 % 2) + q.val) (512 * (t.val % 8) + j.val) := by
  obtain ⟨-, -, e2, e3, -, -⟩ := idx_facts1 t
  show arrW V c (((cfg1.win 1).blk t).view.emb (ix2 q j)) = _
  refine at2_of (R := 4096) (C := 4096) (α := EReal) (arrW V c) _ _ _ ?_ ?_
  · show win1_1.index t (0 : Fin 2) * 2048 + 1 * q.val = _; omega
  · show win1_1.index t (1 : Fin 2) * 512 + 1 * j.val = _; omega

/-- This point's product at (p, q) is its block sum. -/
theorem prod_eq (t : Fin cfg1.N) (p : Fin 1024) (q : Fin 2048) :
    (∑ j : Fin 512, blkA V c t (ix2 p j) * blkW V c t (ix2 q j))
      = M1 (arrA V c) (arrW V c) (1024 * (t.val / 16) + p.val) (2048 * (t.val / 8 % 2) + q.val) (t.val % 8) := by
  unfold M1
  exact Finset.sum_congr rfl fun j _ => by rw [blk0_apply, blk1_apply]

/-- One point's step at (p, q): the accumulating payload over any previous contents adds the point's block sum. -/
theorem step_eq (t : Fin cfg1.N) (prev : FVec Ideal S1024x2048 .f32) (p : Fin 1024) (q : Fin 2048) :
    k1_pay2 (F := Ideal) (iblk1 V c 0 t) (iblk1 V c 1 t) prev (ix2 p q)
      = prev (ix2 p q) + M1 (arrA V c) (arrW V c) (1024 * (t.val / 16) + p.val) (2048 * (t.val / 8 % 2) + q.val) (t.val % 8) :=
  (pay2_apply (blkA V c t) (blkW V c t) prev p q).trans (congrArg (prev (ix2 p q) + ·) (prod_eq V c t p q))

/-- THE ACCUMULATOR after position `n`: the block sums up to k = n mod 8, added in order. -/
theorem acc_inv (n : ℕ) : ∀ (hn : n < cfg1.N) (p : Fin 1024) (q : Fin 2048),
    (outsAt1 V c n hn).2 (ix2 p q)
      = BlockSum.accK (M1 (arrA V c) (arrW V c) (1024 * (n / 16) + p.val) (2048 * (n / 8 % 2) + q.val)) (n % 8) := by
  induction n using Nat.strong_induction_on with
  | _ n ih =>
    intro hn p q
    have hN : n < 256 := lt_of_lt_of_eq hn (show cfg1.N = 256 from N_1)
    by_cases h0 : n % 8 = 0
    · have h1 : ¬ n % 8 = 7 := by omega
      have e := congrArg Prod.snd (outsAt1_A V c ⟨n, hn⟩ h0 h1)
      have e' : (outsAt1 V c n hn).2 = _ := e
      rw [e', sout1_A_0_eq]
      refine (step_eq V c ⟨n, hn⟩ _ p q).trans ?_
      rw [pay1_apply]
      show (0 : EReal) + M1 _ _ _ _ (n % 8) = BlockSum.accK _ (n % 8)
      rw [h0]; rfl
    · have hprev : n - 1 < cfg1.N := Nat.lt_of_le_of_lt (Nat.sub_le _ _) hn
      have hih := ih (n - 1) (by omega) hprev p q
      have e1 : (n - 1) / 16 = n / 16 := by omega
      have e2 : (n - 1) / 8 % 2 = n / 8 % 2 := by omega
      have e3 : n % 8 = (n - 1) % 8 + 1 := by omega
      rw [e1, e2] at hih
      by_cases h1 : n % 8 = 7
      · have e := congrArg Prod.snd (outsAt1_C V c ⟨n, hn⟩ h0 h1)
        have e' : (outsAt1 V c n hn).2 = _ := e
        rw [e', sout1_C_0_eq]
        refine (step_eq V c ⟨n, hn⟩ _ p q).trans ?_
        show (outsAt1 V c (n - 1) hprev).2 (ix2 p q) + M1 _ _ _ _ (n % 8) = BlockSum.accK _ (n % 8)
        rw [hih, e3]; rfl
      · have e := congrArg Prod.snd (outsAt1_B V c ⟨n, hn⟩ h0 h1)
        have e' : (outsAt1 V c n hn).2 = _ := e
        rw [e', sout1_B_0_eq]
        refine (step_eq V c ⟨n, hn⟩ _ p q).trans ?_
        show (outsAt1 V c (n - 1) hprev).2 (ix2 p q) + M1 _ _ _ _ (n % 8) = BlockSum.accK _ (n % 8)
        rw [hih, e3]; rfl

/-- The eight block sums of an entry are its full sum over the 4096 columns. -/
theorem acc_full (r o : ℕ) :
    BlockSum.accK (M1 (arrA V c) (arrW V c) r o) 7 = ∑ i : Fin 4096, at2 (arrA V c) r i.val * at2 (arrW V c) o i.val :=
  BlockSum.accK_8x512 (fun i : Fin 4096 => at2 (arrA V c) r i.val * at2 (arrW V c) o i.val) _ (fun t => rfl)

/-- THE OUTPUT BLOCK at a point with k = 7. -/
theorem out_at (t : Fin cfg1.N) (h1 : t.val % 8 = 7) (p : Fin 1024) (q : Fin 2048) :
    (outsAt1 V c t.val t.isLt).1 (ix2 p q)
      = ∑ i : Fin 4096, at2 (arrA V c) (1024 * (t.val / 16) + p.val) i.val * at2 (arrW V c) (2048 * (t.val / 8 % 2) + q.val) i.val := by
  have h0 : ¬ t.val % 8 = 0 := by omega
  have hN : t.val < 256 := lt_of_lt_of_eq t.isLt (show cfg1.N = 256 from N_1)
  have e := congrArg Prod.fst (outsAt1_C V c t h0 h1)
  have e' : (outsAt1 V c t.val t.isLt).1 = _ := e
  rw [e', out1_C_2_eq]
  refine (step_eq V c t _ p q).trans ?_
  have hprev : t.val - 1 < cfg1.N := Nat.lt_of_le_of_lt (Nat.sub_le _ _) t.isLt
  have hih := acc_inv V c (t.val - 1) hprev p q
  have e1 : (t.val - 1) / 16 = t.val / 16 := by omega
  have e2 : (t.val - 1) / 8 % 2 = t.val / 8 % 2 := by omega
  have e3 : (t.val - 1) % 8 = 6 := by omega
  rw [e1, e2, e3] at hih
  show (outsAt1 V c (t.val - 1) hprev).2 (ix2 p q) + M1 _ _ _ _ (t.val % 8) = _
  rw [hih, h1, ← acc_full V c]; rfl

end

end Cert.KernelIdeal.Hand

end
-- ==== Proof.KI.R1Final.lean ====
/-
  The matrix-product region's output array after the run, at the ideal instance: out(r, o) = Σ_c A(r, c) · W(o, c)
  for the two operands A and W as the region finds them. Block (i, j) of the output is written back once, at the
  point (i, j, 7), with the accumulated sums of rows 1024·i … and 2048·j …; and entry (r, o) lies in the block of the
  point 16·(r / 1024) + 8·(o / 2048) + 7, so the written blocks cover the array.
-/
import proofs.«176794_j40896678593009_2_alg».proof.Proof.KI.R1Value
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Hand

/-- An index of the output array is in point `t`'s block iff each coordinate is in the block's range on its axis. -/
theorem mem_blk1_2 (t : Fin cfg1.N) (i : S16384x4096.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v4).slice (win1_2.rect t)).set ↔ _
  rw [View.set_slice_whole, Rect.mem_set_unit]
  exact Iff.rfl

section
variable (V : (c : Dev nD) → (b : Ref sig .tc) → Buf (Elt Ideal) ((c : Thread nD τ).loc b)) (c : Dev nD)

/-- The product the region computes, of the operands as it finds them. -/
abbrev prodOf : S16384x4096.Idx → EReal := Spec.out2 (arrA V c) (arrW V c)

/-- Entry (p, q) of the block a point with k = 7 writes back is the product's entry at the block's position. -/
theorem flushed_at (t : Fin cfg1.N) (h7 : t.val % 8 = 7) (p : Fin 1024) (q : Fin 2048) :
    (outsAt1 V c t.val t.isLt).1 (ix2 p q) = prodOf V c (((cfg1.win 2).blk t).view.emb (ix2 p q)) := by
  rw [out_at V c t h7 p q]
  obtain ⟨-, -, -, -, e4, e5⟩ := idx_facts1 t
  have hN : t.val < 256 := lt_of_lt_of_eq t.isLt (show cfg1.N = 256 from N_1)
  have hr : 1024 * (t.val / 16) + p.val < 16384 := by omega
  have ho : 2048 * (t.val / 8 % 2) + q.val < 4096 := by omega
  have hemb : ((cfg1.win 2).blk t).view.emb (ix2 p q) = ix2 (⟨1024 * (t.val / 16) + p.val, hr⟩ : Fin 16384) (⟨2048 * (t.val / 8 % 2) + q.val, ho⟩ : Fin 4096) := by
    funext a; apply Fin.ext
    match a with
    | ⟨0, _⟩ => show win1_2.index t (0 : Fin 2) * 1024 + 1 * p.val = 1024 * (t.val / 16) + p.val; omega
    | ⟨1, _⟩ => show win1_2.index t (1 : Fin 2) * 2048 + 1 * q.val = 2048 * (t.val / 8 % 2) + q.val; omega
  rw [hemb]
  show _ = Spec.out2 (arrA V c) (arrW V c) (ix2 _ _)
  rw [Spec.out2_ix2]
  refine Finset.sum_congr rfl fun i _ => ?_
  rw [← at2_ix2 (arrA V c) ⟨1024 * (t.val / 16) + p.val, hr⟩ i, ← at2_ix2 (arrW V c) ⟨2048 * (t.val / 8 % 2) + q.val, ho⟩ i]

/-- WHAT A FLUSHING POINT WRITES BACK is its block of the product. -/
theorem flushed1_eq (t : Fin cfg1.N) (hf : (cfg1.win 2).flush t = true) :
    (dat1 V c).flushed 2 t = ((cfg1.win 2).blk t).view.read (Elt Ideal) (prodOf V c) := by
  have h7 : t.val % 8 = 7 := (flush1_2 t).mp hf
  show (cfg1.win 2).cut (grid1.coords t) ((dat1 V c).after 2 t) = _
  rw [after1_2]
  show ((outsAt1 V c t.val t.isLt).1 : S1024x2048.Idx → EReal) = fun y : S1024x2048.Idx => prodOf V c (((cfg1.win 2).blk t).view.emb y)
  funext y
  obtain ⟨p, q, rfl⟩ : ∃ (p : Fin 1024) (q : Fin 2048), y = ix2 p q := ⟨y 0, y 1, eq_ix2 y⟩
  exact flushed_at V c t h7 p q

/-- Every entry of the output array is in the block of a point that writes back. -/
theorem cover1 (i : S16384x4096.Idx) : ∃ t : Fin cfg1.N, (cfg1.win 2).flush t = true ∧ i ∈ ((cfg1.win 2).blk t).view.set := by
  have hi0 : (i 0).val < 16384 := (i 0).isLt
  have hi1 : (i 1).val < 4096 := (i 1).isLt
  obtain ⟨n, hnd⟩ : ∃ n, n = 16 * ((i 0).val / 1024) + 8 * ((i 1).val / 2048) + 7 := ⟨_, rfl⟩
  have hn : n < cfg1.N := by rw [show cfg1.N = 256 from N_1]; omega
  refine ⟨⟨n, hn⟩, (flush1_2 ⟨n, hn⟩).mpr (by show n % 8 = 7; omega), ?_⟩
  rw [mem_blk1_2]
  obtain ⟨-, -, -, -, e4, e5⟩ := idx_facts1 ⟨n, hn⟩
  have e4' : win1_2.index ⟨n, hn⟩ (0 : Fin 2) = n / 16 := e4
  have e5' : win1_2.index ⟨n, hn⟩ (1 : Fin 2) = n / 8 % 2 := e5
  intro a
  match a with
  | ⟨0, _⟩ => show win1_2.index ⟨n, hn⟩ (0 : Fin 2) * 1024 ≤ (i 0).val ∧ (i 0).val < win1_2.index ⟨n, hn⟩ (0 : Fin 2) * 1024 + 1024; omega
  | ⟨1, _⟩ => show win1_2.index ⟨n, hn⟩ (1 : Fin 2) * 2048 ≤ (i 1).val ∧ (i 1).val < win1_2.index ⟨n, hn⟩ (1 : Fin 2) * 2048 + 2048; omega

/-- THE OUTPUT ARRAY after the region. -/
theorem final1 : (dat1 V c).arrAt 2 cfg1.N = Spec.out2 (V c main_v3) (V c main_v1) :=
  (dat1 V c).arrAt_eq_of_cover 2 (prodOf V c) (fun t hf => flushed1_eq V c t hf) (cover1)

end

end Cert.KernelIdeal.Hand

end
-- ==== Proof.KI.Value0.lean ====
import proofs.«176794_j40896678593009_2_alg».proof.Proof.KI.Region0
import proofs.«176794_j40896678593009_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Cert.Hand

/-! # What the first grid leaves in the weight array, entry by entry (extended reals) -/

theorem zeroOff : (![0, 0] : Fin 2 → Nat) = fun _ => 0 := funext fun a => by fin_cases a <;> rfl

/-- One entry of a step's result: the base entry plus (twice the sign word, less one) times the row's scale. -/
theorem pay_at (x1 : Vec Ideal S256x4096 .i32) (x0 : Vec Ideal S256x4096 .f32) (x2 : Vec Ideal S256x1 .f32)
    (p : Fin 256) (q : Fin 4096) :
    k0_pay1 x1 x0 x2 (ix2 p q)
      = x0 (ix2 p q) + ((((x1 (ix2 p q)).toInt : ℝ) : EReal) * 2 - 1) * x2 (ix2 p (0 : Fin 1)) := by
  have hb : broadcastTo S256x4096 (shapeCast S256x1 x2 shapeCasts_S256x1_S256x1) broadcasts_S256x1_S256x4096 (ix2 p q)
      = x2 (ix2 p (0 : Fin 1)) := by
    rw [shapeCast_self]
    refine broadcastTo_apply x2 _ (ix2 p q) (ix2 p (0 : Fin 1)) fun a => ?_
    match a with
    | ⟨0, _⟩ => rfl
    | ⟨1, _⟩ => rfl
  show x0 (ix2 p q) + ((FloatOps.sitofp .f32 (x1 (ix2 p q)) : Ideal .f32) * (Scalar.ofBits .f32 0x40000000#32 : Ideal .f32)
      - (Scalar.ofBits .f32 0x3F800000#32 : Ideal .f32))
      * broadcastTo S256x4096 (shapeCast S256x1 x2 shapeCasts_S256x1_S256x1) broadcasts_S256x1_S256x4096 (ix2 p q) = _
  rw [hb, Spec.scalar_one, Spec.scalar_two, Spec.sitofp_eq]

section Weight
variable (V : (c : Dev nD) → (b : Ref sig .tc) → Buf (Elt Ideal) ((c : Thread nD τ).loc b))

/-- The block index maps of the four windows, decided over the 16 grid points: point `t` works on block row `t`
    of every window, at block column 0. -/
theorem idx_facts0 : ∀ t : Fin cfg0.N, t.val < 16
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row is some grid point's. -/
theorem idx_onto0 : ∀ q0 : Fin 16, ∃ t : Fin cfg0.N, t.val = q0.val :=
  (by decide +kernel : ∀ q0 : Fin 16, ∃ t : Fin grid0.N, t.val = q0.val)

/-- The weight the first grid computes, as one function of the three arrays it reads. -/
abbrev wgtOf (c : Dev nD) : S4096x4096.Idx → EReal :=
  Spec.wgt (V c main_arg1) (V c main_arg2) (fun j => V c main_v0 (ix2 (j 0) 0))

/-- What grid point `t` writes back is block `t` of that weight. -/
theorem flushed3_eq (c : Dev nD) (t : Fin cfg0.N) :
    (dat0 V c).flushed 3 t = ((cfg0.win 3).blk t).view.read (Elt Ideal) (wgtOf V c) := by
  show (cfg0.win 3).cut (grid0.coords t) ((dat0 V c).after 3 t) = _
  rw [after0_3]
  unfold out0_3
  rw [View.canon_unit_zero zeroOff]
  simp only [View.ld_unit_zero (S := S256x4096) zeroOff, View.ld_unit_zero (S := S256x1) zeroOff]
  obtain ⟨ht, a00, a01, a10, a11, a20, a21, a30, a31⟩ := idx_facts0 t
  funext j
  obtain ⟨p, q, rfl⟩ : ∃ (p : Fin 256) (q : Fin 4096), j = ix2 p q := ⟨j 0, j 1, eq_ix2 j⟩
  refine (pay_at (iblk0 V c 1 t) (iblk0 V c 0 t) (iblk0 V c 2 t) p q).trans ?_
  have hp := p.isLt
  have hq := q.isLt
  have e0 : (((cfg0.win 0).blk t).view.emb (ix2 p q) : S4096x4096.Idx) = ix2 (⟨t.val * 256 + p.val, by omega⟩ : Fin 4096) q := by
    funext a; apply Fin.ext
    match a with
    | ⟨0, _⟩ => show win0_0.index t (0 : Fin 2) * 256 + 1 * p.val = t.val * 256 + p.val; omega
    | ⟨1, _⟩ => show win0_0.index t (1 : Fin 2) * 4096 + 1 * q.val = q.val; omega
  have e1 : (((cfg0.win 1).blk t).view.emb (ix2 p q) : S4096x4096.Idx) = ix2 (⟨t.val * 256 + p.val, by omega⟩ : Fin 4096) q := by
    funext a; apply Fin.ext
    match a with
    | ⟨0, _⟩ => show win0_1.index t (0 : Fin 2) * 256 + 1 * p.val = t.val * 256 + p.val; omega
    | ⟨1, _⟩ => show win0_1.index t (1 : Fin 2) * 4096 + 1 * q.val = q.val; omega
  have e2 : (((cfg0.win 2).blk t).view.emb (ix2 p (0 : Fin 1)) : S4096x1.Idx) = ix2 (⟨t.val * 256 + p.val, by omega⟩ : Fin 4096) (0 : Fin 1) := by
    funext a; apply Fin.ext
    match a with
    | ⟨0, _⟩ => show win0_2.index t (0 : Fin 2) * 256 + 1 * p.val = t.val * 256 + p.val; omega
    | ⟨1, _⟩ => show win0_2.index t (1 : Fin 2) * 1 + 1 * 0 = 0; omega
  have e3 : (((cfg0.win 3).blk t).view.emb (ix2 p q) : S4096x4096.Idx) = ix2 (⟨t.val * 256 + p.val, by omega⟩ : Fin 4096) q := by
    funext a; apply Fin.ext
    match a with
    | ⟨0, _⟩ => show win0_3.index t (0 : Fin 2) * 256 + 1 * p.val = t.val * 256 + p.val; omega
    | ⟨1, _⟩ => show win0_3.index t (1 : Fin 2) * 4096 + 1 * q.val = q.val; omega
  have h0 : iblk0 V c 0 t (ix2 p q) = V c main_arg1 (ix2 (⟨t.val * 256 + p.val, by omega⟩ : Fin 4096) q) := congrArg (V c main_arg1) e0
  have h1 : iblk0 V c 1 t (ix2 p q) = V c main_arg2 (ix2 (⟨t.val * 256 + p.val, by omega⟩ : Fin 4096) q) := congrArg (V c main_arg2) e1
  have h2 : iblk0 V c 2 t (ix2 p (0 : Fin 1)) = V c main_v0 (ix2 (⟨t.val * 256 + p.val, by omega⟩ : Fin 4096) (0 : Fin 1)) := congrArg (V c main_v0) e2
  have h3 : View.read (Elt Ideal) ((View.whole main_v1).slice ((win0 3).rect t)) (wgtOf V c) (ix2 p q)
      = wgtOf V c (ix2 (⟨t.val * 256 + p.val, by omega⟩ : Fin 4096) q) := congrArg (wgtOf V c) e3
  rw [h0, h1, h2, h3]
  rfl

/-- An index of the weight array is in grid point `t`'s block iff each coordinate is in the block's range. -/
theorem mem_blk3 (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v1).slice (win0_3.rect t)).set ↔ _
  rw [View.set_slice_whole, Rect.mem_set_unit]
  exact Iff.rfl

/-- Every entry of the weight array is written back by the grid point of its block row (row / 256). -/
theorem cover3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto0 ⟨(i 0).val / 256, by omega⟩
  have ht' : t.val = (i 0).val / 256 := ht
  obtain ⟨_, _, _, _, _, _, _, a30, a31⟩ := idx_facts0 t
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- When the first grid is left, the weight array holds base + (2·sign − 1)·scale at every entry. -/
theorem weight_array (c : Dev nD) :
    (dat0 V c).arrAt 3 cfg0.N
      = Spec.wgt (V c main_arg1) (V c main_arg2) (fun j => V c main_v0 (ix2 (j 0) 0)) :=
  (dat0 V c).arrAt_eq_of_cover 3 (wgtOf V c) (fun t _ => flushed3_eq V c t) cover3
end Weight

end Cert.KernelIdeal.Hand

end
-- ==== Proof.KI.Glue.lean ====
import proofs.«176794_j40896678593009_2_alg».proof.Proof.KI.Run
import proofs.«176794_j40896678593009_2_alg».proof.Proof.KI.R1Final
import proofs.«176794_j40896678593009_2_alg».proof.Proof.KI.Value0
import proofs.«176794_j40896678593009_2_alg».proof.Proof.Spec
import Idealize.ShloMosaic.Lib.Pipeline.Value
import Idealize.ShloMosaic.Lib.ValueIdx
import Idealize.ShloMosaic.Lib.StableHlo.Run

/-!
From the folded buffer contents to the specification.

The program is three host lines around two grids. The first host line lays the row scales out as a column, the
second flattens the activation to `[16384, 4096]` (and rounds it, which changes nothing on the extended reals), the
third gives the product its `[8, 2048, 4096]` shape back. Each is read here at an index; with what the two grids
leave in their output arrays, the result buffer holds the specification's `G` of the four arguments.
-/

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx Idealize.ShloMosaic.StableHlo
open Idealize.SL.Sem

/-! ## The two reshapes at an index -/

section Casts
variable {α : Type}

/-- An `[8, 2048, 4096]` array cast to `[16384, 4096]` reads, at row `q`, the operand at `(q / 2048, q % 2048)`. -/
theorem cast_3_2 (x : S8x2048x4096.Idx → α) (h : S8x2048x4096.ShapeCasts S16384x4096) (q : Fin 16384) (i : Fin 4096) :
    shapeCast S16384x4096 x h (ix2 q i)
      = x (ix3 (⟨q.val / 2048, by have := q.isLt; omega⟩ : Fin 8) (⟨q.val % 2048, Nat.mod_lt _ (by norm_num)⟩ : Fin 2048) i) :=
  shapeCast_apply x h _ _ (by
    rw [Shape.rowMajor_val_three, Shape.rowMajor_val_two]
    show (q.val / 2048 * 2048 + q.val % 2048) * 4096 + i.val = q.val * 4096 + i.val
    omega)

/-- A `[16384, 4096]` array cast to `[8, 2048, 4096]` reads, at `(b, r, o)`, the operand at row `2048 b + r`. -/
theorem cast_2_3 (y : S16384x4096.Idx → α) (h : S16384x4096.ShapeCasts S8x2048x4096) (b : Fin 8) (r : Fin 2048) (o : Fin 4096) :
    shapeCast S8x2048x4096 y h (ix3 b r o) = y (ix2 (Spec.row b r) o) :=
  shapeCast_apply y h _ _ (by
    rw [Shape.rowMajor_val_two, Shape.rowMajor_val_three]
    show (2048 * b.val + r.val) * 4096 + o.val = (b.val * 2048 + r.val) * 4096 + o.val
    omega)

end Casts

variable (m : (ℓ : Loc nD τ sig) → Buf (Elt Ideal) ℓ) (ρ : Dev nD → PrngReg) (c : Dev nD)

/-- No operation of a host line writes the buffer, so the line leaves it as it was. -/
macro "not_written" l:ident : tactic =>
  `(tactic| (refine StableHlo.after_of_forall_not_mem _ _ (List.forall_iff_forall_mem.mp ?_)
             simp only [$l:ident, List.Forall, StableHlo.unary_writes, StableHlo.reshape_writes, Finset.mem_singleton]
             repeat' apply And.intro
             all_goals exact StableHlo.devRef_ne_of_ne (by decide)))

/-! ## The first host line: the scales as a column; the base weight and the signs untouched -/

theorem V1_main_arg0 : V1 m ρ c main_arg0 = m ((c : Thread nD τ).loc main_arg0) :=
  (show W1 m ρ c (Proc.devRef .tc main_arg0) = W0 m ρ c (Proc.devRef .tc main_arg0) by not_written hostOps0).trans rfl
theorem V1_main_arg1 : V1 m ρ c main_arg1 = m ((c : Thread nD τ).loc main_arg1) :=
  (show W1 m ρ c (Proc.devRef .tc main_arg1) = W0 m ρ c (Proc.devRef .tc main_arg1) by not_written hostOps0).trans rfl
theorem V1_main_arg2 : V1 m ρ c main_arg2 = m ((c : Thread nD τ).loc main_arg2) :=
  (show W1 m ρ c (Proc.devRef .tc main_arg2) = W0 m ρ c (Proc.devRef .tc main_arg2) by not_written hostOps0).trans rfl

theorem V1_main_v0_term : (V1 m ρ c main_v0 : S4096x1.Idx → EReal)
    = broadcastInDim S4096x1 ![0] bcast_S4096_S4096x1_0 (m ((c : Thread nD τ).loc main_arg3)) := by
  dsimp only [V1, W1, hostOps0]; after_results; all_goals rfl

/-- The column at `(o, 0)` is the scale of row `o`. -/
theorem V1_main_v0 : (V1 m ρ c main_v0 : S4096x1.Idx → EReal)
    = fun j : S4096x1.Idx => m ((c : Thread nD τ).loc main_arg3) (ix1 (⟨(j 0).val, idx2_lt0 j⟩ : Fin 4096)) := by
  rw [V1_main_v0_term]
  funext j
  exact broadcastInDim_apply _ bcast_S4096_S4096x1_0 _ j (ix1 (⟨(j 0).val, idx2_lt0 j⟩ : Fin 4096)) (fun a => match a with
    | ⟨0, _⟩ => by show (j 0).val = if (4096 : Nat) = 1 then 0 else (j 0).val; rw [if_neg (by decide)])

/-- Read back along the column, it is the scale vector. -/
theorem V1_scale : (fun j : S4096.Idx => (V1 m ρ c main_v0 : S4096x1.Idx → EReal) (ix2 (j 0) 0))
    = m ((c : Thread nD τ).loc main_arg3) := by
  rw [V1_main_v0]
  funext j
  exact congrArg (m ((c : Thread nD τ).loc main_arg3)) (eq_ix1 j).symm

/-! ## The second host line: the activation flattened; the weight the first grid left untouched -/

theorem W2_main_arg0 : W2 m ρ c (Proc.devRef .tc main_arg0) = m ((c : Thread nD τ).loc main_arg0) :=
  (W2_of_ne m ρ c main_arg0 (by decide)).trans (V1_main_arg0 m ρ c)

theorem V3_main_v3_term : (V3 m ρ c main_v3 : S16384x4096.Idx → EReal)
    = truncf (F := Ideal) .bf16 (shapeCast S16384x4096 (W2 m ρ c (Proc.devRef .tc main_arg0) : S8x2048x4096.Idx → EReal)
        shapeCasts_S8x2048x4096_S16384x4096) bitsLt_bf16_f32 := by
  dsimp only [V3, W3, hostOps1]; after_results; all_goals rfl

/-- The second grid's left operand is the flattened activation. -/
theorem V3_main_v3 : (V3 m ρ c main_v3 : S16384x4096.Idx → EReal) = Spec.flat (m ((c : Thread nD τ).loc main_arg0)) := by
  rw [V3_main_v3_term, W2_main_arg0]
  funext j
  obtain ⟨q, i, rfl⟩ : ∃ (q : Fin 16384) (i : Fin 4096), j = ix2 q i := ⟨j 0, j 1, eq_ix2 j⟩
  exact cast_3_2 _ _ q i

/-- The second grid's right operand is the array the first grid wrote. -/
theorem V3_main_v1 : V3 m ρ c main_v1 = (dat0 (V1 m ρ) c).arrAt 3 cfg0.N :=
  (show W3 m ρ c (Proc.devRef .tc main_v1) = W2 m ρ c (Proc.devRef .tc main_v1) by not_written hostOps1).trans
    (W2_arr m ρ c 3)

/-! ## The third host line: the product in the result's shape -/

theorem W5_main_v5_term : (W5 m ρ c (Proc.devRef .tc main_v5) : S8x2048x4096.Idx → EReal)
    = shapeCast S8x2048x4096 (W4 m ρ c (Proc.devRef .tc main_v4) : S16384x4096.Idx → EReal)
        shapeCasts_S16384x4096_S8x2048x4096 := by
  dsimp only [W5, hostOps2]; after_results; all_goals rfl

/-- The result at `(b, r, o)` is the second grid's output at row `2048 b + r`. -/
theorem W5_main_v5 (b : Fin 8) (r : Fin 2048) (o : Fin 4096) :
    (W5 m ρ c (Proc.devRef .tc main_v5) : S8x2048x4096.Idx → EReal) (ix3 b r o)
      = ((dat1 (V3 m ρ) c).arrAt 2 cfg1.N : S16384x4096.Idx → EReal) (ix2 (Spec.row b r) o) := by
  rw [W5_main_v5_term]
  exact (cast_2_3 _ _ b r o).trans (congrFun (W4_arr m ρ c 2) _)

/-! ## The result buffer holds the specification's result -/

/-- The weight array the first grid leaves is the effective weight of the arguments. -/
theorem weight_of_args : ((dat0 (V1 m ρ) c).arrAt 3 cfg0.N : S4096x4096.Idx → EReal)
    = Spec.wgt (m ((c : Thread nD τ).loc main_arg1)) (m ((c : Thread nD τ).loc main_arg2)) (m ((c : Thread nD τ).loc main_arg3)) := by
  rw [weight_array (V1 m ρ) c, V1_main_arg1, V1_main_arg2, V1_scale]

theorem kernel_result : (W5 m ρ c (Proc.devRef .tc main_v5) : S8x2048x4096.Idx → EReal)
    = Spec.G (m ((c : Thread nD τ).loc main_arg0)) (m ((c : Thread nD τ).loc main_arg1))
        (m ((c : Thread nD τ).loc main_arg2)) (m ((c : Thread nD τ).loc main_arg3)) := by
  funext j
  obtain ⟨b, r, o, rfl⟩ : ∃ (b : Fin 8) (r : Fin 2048) (o : Fin 4096), j = ix3 b r o := ⟨j 0, j 1, j 2, eq_ix3 j⟩
  rw [W5_main_v5, final1 (V3 m ρ) c, V3_main_v3, V3_main_v1, weight_of_args, Spec.out2_flat_wgt]

end Cert.KernelIdeal.Hand

end
-- ==== Proof.PreSigns.lean ====
import proofs.«176794_j40896678593009_2_alg».proof.Pre_finite_inputs
import proofs.«176794_j40896678593009_2_alg».proof.Proof.Gen.Pre_finite_inputs
import Idealize.ShloMosaic.Lib.ReduceAll
import Idealize.ShloMosaic.Lib.ValueIdx

/-!
What the precondition gives: every sign word is `0` or `1`. And what that buys: for such a word `b` the
integer `2 b − 1` computed in 32-bit words does not wrap, so converting it to a float is the same as converting
`b` and computing `2 b − 1` on the floats.
-/

noncomputable section

namespace Cert.Hand.PreSigns

open Idealize.ShloMosaic Idealize.ShloMosaic.ValueIdx
open Cert.Pre_finite_inputs

/-- The scalar shape has one index. -/
instance : Subsingleton S_.Idx := ⟨fun _ _ => funext fun d => d.elim0⟩

/-- The precondition's last conjunct, read at an index: the sign word there is `0` or `1`. -/
theorem signs01 (x : FVec Ideal S8x2048x4096 .f32) (base : FVec Ideal S4096x4096 .f32) (s : IVec S4096x4096 32)
    (scale : FVec Ideal S4096 .f32)
    (h : Cert.Pre_finite_inputs.fn (F := Ideal) x base s scale = fun _ => 1#1) :
    ∀ j, s j = 0#32 ∨ s j = 1#32 := by
  intro j
  have e := congrFun h ix0
  dsimp only [Cert.Pre_finite_inputs.fn, Cert.Pre_finite_inputs.fn_part1] at e
  have e2 := (IntOp.andi_eq_one.1 e).2
  have e3 := Host.reduce_andi_all _ _ _ _ _ e2 j
  rcases IntOp.ori_eq_one.1 e3 with h0 | h1
  · exact Or.inl (IntOp.cmpi_eq.1 h0)
  · exact Or.inr (IntOp.cmpi_eq.1 h1)

/-- For a word that is `0` or `1`, `2 b − 1` in 32-bit words, read signed, is `2 b − 1` on the extended reals. -/
theorem two_mul_sub_one (b : BitVec 32) (hb : b = 0#32 ∨ b = 1#32) :
    (((IntOp.subi (IntOp.muli b 2#32) 1#32).toInt : ℝ) : EReal) = ((b.toInt : ℝ) : EReal) * 2 - 1 := by
  rcases hb with rfl | rfl
  · have h1 : (IntOp.subi (IntOp.muli 0#32 2#32) 1#32).toInt = -1 := by decide
    have h2 : (0#32 : BitVec 32).toInt = 0 := by decide
    rw [h1, h2]
    norm_num
  · have h1 : (IntOp.subi (IntOp.muli 1#32 2#32) 1#32).toInt = 1 := by decide
    have h2 : (1#32 : BitVec 32).toInt = 1 := by decide
    rw [h1, h2]
    norm_num
    rw [show (2 : EReal) = ((2 : ℝ) : EReal) by norm_cast, show (1 : EReal) = ((1 : ℝ) : EReal) by norm_cast,
      ← EReal.coe_sub]
    norm_num

end Cert.Hand.PreSigns

end
-- ==== Proof.RefValue.lean ====
import proofs.«176794_j40896678593009_2_alg».proof.Proof.Gen.ReferenceIdeal.Read
import proofs.«176794_j40896678593009_2_alg».proof.Proof.Spec
import proofs.«176794_j40896678593009_2_alg».proof.Proof.PreSigns

/-!
The reference program computes the specification's result.

The reference forms the sign `2 s − 1` in 32-bit integers and converts it; on words that are `0` or `1` that is
`2 s − 1` of the converted word. Its weight is then the specification's effective weight, entry by entry, and its
contraction of the activation's last axis with the weight's last axis is the specification's sum.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Hand

/-- The reference's weight at entry `(o, k)` is the specification's. -/
theorem weight_eq (base : FVec Ideal S4096x4096 .f32) (s : IVec S4096x4096 32) (scale : FVec Ideal S4096 .f32)
    (hs : ∀ j, s j = 0#32 ∨ s j = 1#32) (o k : Fin 4096) :
    val_main_v8 (F := Ideal) base s scale (ix2 o k) = Spec.wgt base s scale (ix2 o k) := by
  have e5 : idx_main_v5 (idx_main_v6 (ix2 o k)) = ix1 o :=
    funext fun a => Fin.ext (by match a with | ⟨0, _⟩ => rfl)
  rw [val_main_v8_apply, val_main_v7_apply, val_main_v6_apply, val_main_v5_apply, val_main_v4_apply,
    val_main_v3_apply, val_main_v2_apply, val_main_v1_apply, val_main_v0_apply, val_main_c_apply,
    val_main_c_0_apply, e5, Spec.wgt_ix2]
  show base (ix2 o k)
      + (((IntOp.subi (IntOp.muli (s (ix2 o k)) 2#32) 1#32).toInt : ℝ) : EReal) * scale (ix1 o) = _
  rw [PreSigns.two_mul_sub_one _ (hs _)]

/-- The reference's result is the specification's `G` of its four arguments, when every sign word is `0` or `1`. -/
theorem ref_eq_G (x : FVec Ideal S8x2048x4096 .f32) (base : FVec Ideal S4096x4096 .f32) (s : IVec S4096x4096 32)
    (scale : FVec Ideal S4096 .f32) (hs : ∀ j, s j = 0#32 ∨ s j = 1#32) :
    val_main_v9 (F := Ideal) x base s scale = Spec.G x base s scale := by
  funext i
  obtain ⟨b, r, o, rfl⟩ : ∃ (b : Fin 8) (r : Fin 2048) (o : Fin 4096), i = ix3 b r o :=
    ⟨i 0, i 1, i 2, eq_ix3 i⟩
  rw [val_main_v9_apply, Spec.G_ix3]
  refine Finset.sum_congr rfl fun k _ => ?_
  have el : lidx_main_v9 (ix3 b r o) k = ix3 b r k :=
    funext fun a => Fin.ext (by match a with | ⟨0, _⟩ => rfl | ⟨1, _⟩ => rfl | ⟨2, _⟩ => rfl)
  have er : ridx_main_v9 (ix3 b r o) k = ix2 o k :=
    funext fun a => Fin.ext (by match a with | ⟨0, _⟩ => rfl | ⟨1, _⟩ => rfl)
  rw [el, er, weight_eq base s scale hs]

/-- The same, on the term the reference's run states for its result buffer. -/
theorem run_term_eq_G (x : FVec Ideal S8x2048x4096 .f32) (base : FVec Ideal S4096x4096 .f32) (s : IVec S4096x4096 32)
    (scale : FVec Ideal S4096 .f32) (hs : ∀ j, s j = 0#32 ∨ s j = 1#32) :
    Host.dotGeneral dot_S8x2048x4096_S4096x4096_S8x2048x4096_2_1_01_0_n_n none x
        (addf base (mulf (sitofp .f32 (subi (muli s (broadcastInDim S4096x4096 ![] bcast_S_S4096x4096 (constantI S_ 32 2#32)))
          (broadcastInDim S4096x4096 ![] bcast_S_S4096x4096 (constantI S_ 32 1#32))))
          (broadcastInDim S4096x4096 ![0, 1] bcast_S4096x1_S4096x4096_0_1
            (broadcastInDim S4096x1 ![0] bcast_S4096_S4096x1_0 scale))))
      = Spec.G x base s scale :=
  (val_main_v9_eq (F := Ideal) x base s scale).trans (ref_eq_G x base s scale hs)

end Cert.ReferenceIdeal.RefValue

end
-- ==== Proof.Algebraic.lean ====
import proofs.«176794_j40896678593009_2_alg».proof.Defs
import proofs.«176794_j40896678593009_2_alg».proof.Proof.KI.Glue
import proofs.«176794_j40896678593009_2_alg».proof.Proof.RefValue
import proofs.«176794_j40896678593009_2_alg».proof.Proof.PreSigns

/-!
The two programs agree on the extended reals.

From memories that agree on the four arguments, under the precondition: the kernel program runs and its result
buffer holds the specification's `G` of the arguments; the reference runs and, the sign words being `0` or `1`
by the precondition, its result is the same `G`. Both leave the arguments as they were.
-/

set_option maxRecDepth 16384

noncomputable section

namespace Cert.Proof

open Idealize.ShloMosaic Idealize.ShloMosaic.TcCoe Idealize.SL.Sem

theorem algebraic : Cert.algebraic_KernelIdeal_ReferenceIdeal := by
  intro m ρ m' ρ' hpre hagree
  refine ⟨fun c => Cert.Hand.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v5 (by decide))).trans
          (Cert.KernelIdeal.Hand.kernel_result m ρ c),
        (h c _ (Cert.KernelIdeal.Hand.mem_uc Cert.KernelIdeal.main_arg0 (by decide))).trans
          (Cert.KernelIdeal.Hand.W5_main_arg0 m ρ c),
        (h c _ (Cert.KernelIdeal.Hand.mem_uc Cert.KernelIdeal.main_arg1 (by decide))).trans
          (Cert.KernelIdeal.Hand.W5_main_arg1 m ρ c),
        (h c _ (Cert.KernelIdeal.Hand.mem_uc Cert.KernelIdeal.main_arg2 (by decide))).trans
          (Cert.KernelIdeal.Hand.W5_main_arg2 m ρ c),
        (h c _ (Cert.KernelIdeal.Hand.mem_uc Cert.KernelIdeal.main_arg3 (by decide))).trans
          (Cert.KernelIdeal.Hand.W5_main_arg3 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.RefValue.run_term_eq_G _ _ _ _ (Cert.Hand.PreSigns.signs01 _ _ _ _ (hpre c))

end Cert.Proof

end
-- ==== Proof.lean ====
/- The two programs compute the same [8, 2048, 4096] array from the same four inputs, and each leaves its inputs as
   they were. The first grid forms, 256 rows at a time, the weight W o i = base o i + (2 · s o i − 1) · scale o, where
   s o i is the sign word (0 or 1), and keeps it in the short float format. The second grid multiplies the activation,
   flattened to [16384, 4096] and put in the short format, against the rows of W: each 1024 × 2048 tile of the product is
   the sum of eight partial products over slices of 512 of the contracted axis, kept in an accumulator that is cleared
   at the first slice and copied out after the last. The frames are the run of the five segments (host line, grid, host
   line, grid, host line) with that accumulator followed from grid point to grid point. Over the extended reals the two
   format changes are the identity, the eight partial sums add up to the sum over all 4096 contracted entries, and the
   reference's integer 2 · s − 1 is the real one because s is 0 or 1: both results are Spec.G, entry by entry. -/
import proofs.«176794_j40896678593009_2_alg».proof.Defs
import proofs.«176794_j40896678593009_2_alg».proof.Proof.Frames
import proofs.«176794_j40896678593009_2_alg».proof.Proof.RefFrame
import proofs.«176794_j40896678593009_2_alg».proof.Proof.Algebraic
import proofs.«176794_j40896678593009_2_alg».proof.Proof.Gen.Kernel
import proofs.«176794_j40896678593009_2_alg».proof.Proof.Gen.KernelIdeal
import proofs.«176794_j40896678593009_2_alg».proof.Proof.Gen.ReferenceIdeal
import proofs.«176794_j40896678593009_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
